-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S128x64 .f32) (main_arg6 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x64 .f32) (main_arg6 : FVec F S64 .f32) (main_arg7 : IVec S2x1600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S5000x128 : Shape := ⟨2, ![5000, 128]⟩
abbrev S1650000x128 : Shape := ⟨2, ![1650000, 128]⟩
abbrev S1x128 : Shape := ⟨2, ![1, 128]⟩
abbrev S50000x64 : Shape := ⟨2, ![50000, 64]⟩
abbrev S5000x64 : Shape := ⟨2, ![5000, 64]⟩
abbrev S1650000x64 : Shape := ⟨2, ![1650000, 64]⟩
abbrev S1x64 : Shape := ⟨2, ![1, 64]⟩

abbrev nBuf : Space → Nat
  | .hbm => 98
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S2x1600000, .i32⟩
  | .hbm, ⟨8, _⟩ => ⟨S50000, .i32⟩
  | .hbm, ⟨9, _⟩ => ⟨S1x1600000, .i32⟩
  | .hbm, ⟨10, _⟩ => ⟨S1600000, .i32⟩
  | .hbm, ⟨11, _⟩ => ⟨S1650000, .i32⟩
  | .hbm, ⟨12, _⟩ => ⟨S1x1600000, .i32⟩
  | .hbm, ⟨13, _⟩ => ⟨S1600000, .i32⟩
  | .hbm, ⟨14, _⟩ => ⟨S1650000, .i32⟩
  | .hbm, ⟨15, _⟩ => ⟨S_, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S1650000, .i32⟩
  | .hbm, ⟨24, _⟩ => ⟨S1650000, .i1⟩
  | .hbm, ⟨25, _⟩ => ⟨S_, .i32⟩
  | .hbm, ⟨26, _⟩ => ⟨S1650000, .i32⟩
  | .hbm, ⟨27, _⟩ => ⟨S1650000, .i32⟩
  | .hbm, ⟨28, _⟩ => ⟨S1650000, .i32⟩
  | .hbm, ⟨29, _⟩ => ⟨S1650000x1, .i32⟩
  | .hbm, ⟨30, _⟩ => ⟨S1650000, .f32⟩
  | .hbm, ⟨31, _⟩ => ⟨S_, .i32⟩
  | .hbm, ⟨32, _⟩ => ⟨S1650000, .i32⟩
  | .hbm, ⟨33, _⟩ => ⟨S1650000, .i1⟩
  | .hbm, ⟨34, _⟩ => ⟨S_, .i32⟩
  | .hbm, ⟨35, _⟩ => ⟨S1650000, .i32⟩
  | .hbm, ⟨36, _⟩ => ⟨S1650000, .i32⟩
  | .hbm, ⟨37, _⟩ => ⟨S1650000, .i32⟩
  | .hbm, ⟨38, _⟩ => ⟨S1650000x1, .i32⟩
  | .hbm, ⟨39, _⟩ => ⟨S1650000, .f32⟩
  | .hbm, ⟨40, _⟩ => ⟨S1650000, .f32⟩
  | .hbm, ⟨41, _⟩ => ⟨S50000x128, .f32⟩
  | .hbm, ⟨42, _⟩ => ⟨S_, .i32⟩
  | .hbm, ⟨43, _⟩ => ⟨S1650000, .i32⟩
  | .hbm, ⟨44, _⟩ => ⟨S1650000, .i1⟩
  | .hbm, ⟨45, _⟩ => ⟨S_, .i32⟩
  | .hbm, ⟨46, _⟩ => ⟨S1650000, .i32⟩
  | .hbm, ⟨47, _⟩ => ⟨S1650000, .i32⟩
  | .hbm, ⟨48, _⟩ => ⟨S1650000, .i32⟩
  | .hbm, ⟨49, _⟩ => ⟨S1650000x1, .i32⟩
  | .hbm, ⟨50, _⟩ => ⟨S1650000x128, .f32⟩
  | .hbm, ⟨51, _⟩ => ⟨S1650000x1, .f32⟩
  | .hbm, ⟨52, _⟩ => ⟨S1650000x128, .f32⟩
  | .hbm, ⟨53, _⟩ => ⟨S1650000x128, .f32⟩
  | .hbm, ⟨54, _⟩ => ⟨S_, .f32⟩
  | .hbm, ⟨55, _⟩ => ⟨S50000x128, .f32⟩
  | .hbm, ⟨56, _⟩ => ⟨S1650000x1, .i32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S1650000, .i32⟩
  | .hbm, ⟨63, _⟩ => ⟨S1650000, .i1⟩
  | .hbm, ⟨64, _⟩ => ⟨S_, .i32⟩
  | .hbm, ⟨65, _⟩ => ⟨S1650000, .i32⟩
  | .hbm, ⟨66, _⟩ => ⟨S1650000, .i32⟩
  | .hbm, ⟨67, _⟩ => ⟨S1650000, .i32⟩
  | .hbm, ⟨68, _⟩ => ⟨S1650000x1, .i32⟩
  | .hbm, ⟨69, _⟩ => ⟨S1650000x128, .f32⟩
  | .hbm, ⟨70, _⟩ => ⟨S1650000x1, .f32⟩
  | .hbm, ⟨71, _⟩ => ⟨S1650000x128, .f32⟩
  | .hbm, ⟨72, _⟩ => ⟨S1650000x128, .f32⟩
  | .hbm, ⟨73, _⟩ => ⟨S_, .f32⟩
  | .hbm, ⟨74, _⟩ => ⟨S50000x128, .f32⟩
  | .hbm, ⟨75, _⟩ => ⟨S1650000x1, .i32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x64, .f32⟩
  | .hbm, ⟨80, _⟩ => ⟨S_, .i32⟩
  | .hbm, ⟨81, _⟩ => ⟨S1650000, .i32⟩
  | .hbm, ⟨82, _⟩ => ⟨S1650000, .i1⟩
  | .hbm, ⟨83, _⟩ => ⟨S_, .i32⟩
  | .hbm, ⟨84, _⟩ => ⟨S1650000, .i32⟩
  | .hbm, ⟨85, _⟩ => ⟨S1650000, .i32⟩
  | .hbm, ⟨86, _⟩ => ⟨S1650000, .i32⟩
  | .hbm, ⟨87, _⟩ => ⟨S1650000x1, .i32⟩
  | .hbm, ⟨88, _⟩ => ⟨S1650000x64, .f32⟩
  | .hbm, ⟨89, _⟩ => ⟨S1650000x1, .f32⟩
  | .hbm, ⟨90, _⟩ => ⟨S1650000x64, .f32⟩
  | .hbm, ⟨91, _⟩ => ⟨S1650000x64, .f32⟩
  | .hbm, ⟨92, _⟩ => ⟨S_, .f32⟩
  | .hbm, ⟨93, _⟩ => ⟨S50000x64, .f32⟩
  | .hbm, ⟨94, _⟩ => ⟨S1650000x1, .i32⟩
  | .hbm, ⟨95, _⟩ => ⟨S50000x64, .f32⟩
  | .hbm, ⟨96, _⟩ => ⟨S1x64, .f32⟩
  | .hbm, ⟨97, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_10 : Ref sig .tc := ⟨.hbm, 80, rfl⟩
abbrev main_v60 : Ref sig .tc := ⟨.hbm, 81, rfl⟩
abbrev main_v61 : Ref sig .tc := ⟨.hbm, 82, rfl⟩
abbrev main_c_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_12 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩

abbrev nBuf : Space → Nat
  | .hbm => 107
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S2x1600000, .i32⟩
  | .hbm, ⟨8, _⟩ => ⟨S50000, .i32⟩
  | .hbm, ⟨9, _⟩ => ⟨S1x1600000, .i32⟩
  | .hbm, ⟨10, _⟩ => ⟨S1600000, .i32⟩
  | .hbm, ⟨11, _⟩ => ⟨S1650000, .i32⟩
  | .hbm, ⟨12, _⟩ => ⟨S1x1600000, .i32⟩
  | .hbm, ⟨13, _⟩ => ⟨S1600000, .i32⟩
  | .hbm, ⟨14, _⟩ => ⟨S1650000, .i32⟩
  | .hbm, ⟨15, _⟩ => ⟨S_, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S1650000, .i32⟩
  | .hbm, ⟨24, _⟩ => ⟨S1650000, .i1⟩
  | .hbm, ⟨25, _⟩ => ⟨S_, .i32⟩
  | .hbm, ⟨26, _⟩ => ⟨S1650000, .i32⟩
  | .hbm, ⟨27, _⟩ => ⟨S1650000, .i32⟩
  | .hbm, ⟨28, _⟩ => ⟨S1650000, .i32⟩
  | .hbm, ⟨29, _⟩ => ⟨S1650000x1, .i32⟩
  | .hbm, ⟨30, _⟩ => ⟨S1650000, .f32⟩
  | .hbm, ⟨31, _⟩ => ⟨S_, .i32⟩
  | .hbm, ⟨32, _⟩ => ⟨S1650000, .i32⟩
  | .hbm, ⟨33, _⟩ => ⟨S1650000, .i1⟩
  | .hbm, ⟨34, _⟩ => ⟨S_, .i32⟩
  | .hbm, ⟨35, _⟩ => ⟨S1650000, .i32⟩
  | .hbm, ⟨36, _⟩ => ⟨S1650000, .i32⟩
  | .hbm, ⟨37, _⟩ => ⟨S1650000, .i32⟩
  | .hbm, ⟨38, _⟩ => ⟨S1650000x1, .i32⟩
  | .hbm, ⟨39, _⟩ => ⟨S1650000, .f32⟩
  | .hbm, ⟨40, _⟩ => ⟨S1650000, .f32⟩
  | .hbm, ⟨41, _⟩ => ⟨S50000x128, .f32⟩
  | .hbm, ⟨42, _⟩ => ⟨S_, .i32⟩
  | .hbm, ⟨43, _⟩ => ⟨S1650000, .i32⟩
  | .hbm, ⟨44, _⟩ => ⟨S1650000, .i1⟩
  | .hbm, ⟨45, _⟩ => ⟨S_, .i32⟩
  | .hbm, ⟨46, _⟩ => ⟨S1650000, .i32⟩
  | .hbm, ⟨47, _⟩ => ⟨S1650000, .i32⟩
  | .hbm, ⟨48, _⟩ => ⟨S1650000, .i32⟩
  | .hbm, ⟨49, _⟩ => ⟨S1650000x1, .i32⟩
  | .hbm, ⟨50, _⟩ => ⟨S1650000x128, .f32⟩
  | .hbm, ⟨51, _⟩ => ⟨S1650000x1, .f32⟩
  | .hbm, ⟨52, _⟩ => ⟨S1650000x128, .f32⟩
  | .hbm, ⟨53, _⟩ => ⟨S1650000x128, .f32⟩
  | .hbm, ⟨54, _⟩ => ⟨S_, .f32⟩
  | .hbm, ⟨55, _⟩ => ⟨S50000x128, .f32⟩
  | .hbm, ⟨56, _⟩ => ⟨S1650000x1, .i32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S1650000, .i32⟩
  | .hbm, ⟨67, _⟩ => ⟨S1650000, .i1⟩
  | .hbm, ⟨68, _⟩ => ⟨S_, .i32⟩
  | .hbm, ⟨69, _⟩ => ⟨S1650000, .i32⟩
  | .hbm, ⟨70, _⟩ => ⟨S1650000, .i32⟩
  | .hbm, ⟨71, _⟩ => ⟨S1650000, .i32⟩
  | .hbm, ⟨72, _⟩ => ⟨S1650000x1, .i32⟩
  | .hbm, ⟨73, _⟩ => ⟨S1650000x128, .f32⟩
  | .hbm, ⟨74, _⟩ => ⟨S1650000x1, .f32⟩
  | .hbm, ⟨75, _⟩ => ⟨S1650000x128, .f32⟩
  | .hbm, ⟨76, _⟩ => ⟨S1650000x128, .f32⟩
  | .hbm, ⟨77, _⟩ => ⟨S_, .f32⟩
  | .hbm, ⟨78, _⟩ => ⟨S50000x128, .f32⟩
  | .hbm, ⟨79, _⟩ => ⟨S1650000x1, .i32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S50000x64, .f32⟩
  | .hbm, ⟨88, _⟩ => ⟨S_, .i32⟩
  | .hbm, ⟨89, _⟩ => ⟨S1650000, .i32⟩
  | .hbm, ⟨90, _⟩ => ⟨S1650000, .i1⟩
  | .hbm, ⟨91, _⟩ => ⟨S_, .i32⟩
  | .hbm, ⟨92, _⟩ => ⟨S1650000, .i32⟩
  | .hbm, ⟨93, _⟩ => ⟨S1650000, .i32⟩
  | .hbm, ⟨94, _⟩ => ⟨S1650000, .i32⟩
  | .hbm, ⟨95, _⟩ => ⟨S1650000x1, .i32⟩
  | .hbm, ⟨96, _⟩ => ⟨S1650000x64, .f32⟩
  | .hbm, ⟨97, _⟩ => ⟨S1650000x1, .f32⟩
  | .hbm, ⟨98, _⟩ => ⟨S1650000x64, .f32⟩
  | .hbm, ⟨99, _⟩ => ⟨S1650000x64, .f32⟩
  | .hbm, ⟨100, _⟩ => ⟨S_, .f32⟩
  | .hbm, ⟨101, _⟩ => ⟨S50000x64, .f32⟩
  | .hbm, ⟨102, _⟩ => ⟨S1650000x1, .i32⟩
  | .hbm, ⟨103, _⟩ => ⟨S50000x64, .f32⟩
  | .hbm, ⟨104, _⟩ => ⟨S1x64, .f32⟩
  | .hbm, ⟨105, _⟩ => ⟨S50000x64, .f32⟩
  | .hbm, ⟨106, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩
abbrev main_v63 : Ref sig .tc := ⟨.hbm, 87, rfl⟩
abbrev main_c_10 : Ref sig .tc := ⟨.hbm, 88, rfl⟩
abbrev main_v64 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.Gcn.lean ====
/-
  A three-layer graph convolution as ONE function of its inputs.

  The graph has 50000 nodes and 1600000 directed edges, to which one self-loop per node is joined: 1650000 edges with
  source numbers `s`, destination numbers `d` and one real weight `n` per edge (the symmetric normalisation: the product of
  the inverse square roots of the two endpoints' in-degrees). One layer takes node features `h`, multiplies them by a weight
  matrix, sends along every edge the source's row scaled by the edge's weight, adds up at every node what arrives there
  (`aggregate`), and adds a bias row to every node's row; the first two layers end with `max (·, 0)`.

  Everything about the edges — reading a negative node number `k` as `k + 50000`, gathering rows, scattering sums — is the
  same host computation in both programs of this certificate, so it is carried here as fixed functions of `s`, `d`, `n`
  and the features, and never opened: the two programs differ only in how a layer's matrix product and its bias step are
  computed, and those are the only places where anything is proved about values.
-/
import proofs.«117649_j11527692223233_1_alg».proof.Proof.Gen.ReferenceIdeal.Read

noncomputable section

namespace Cert.Gcn

open Idealize.ShloMosaic Cert.ReferenceIdeal Cert.ReferenceIdeal.Gen

/-- Node features with 128 and with 64 columns, and the per-edge node numbers and weights. -/
abbrev Nodes128 := FVec Ideal S50000x128 .f32
abbrev Nodes64 := FVec Ideal S50000x64 .f32
abbrev EdgeNumbers := (⟨S1650000, .i32⟩ : BufTy).Contents (Elt Ideal)
abbrev EdgeWeights := FVec Ideal S1650000 .f32

/-- Node numbers as the index column of a gather: a negative number `k` stands for `k + 50000`. -/
def indexColumn (s : EdgeNumbers) : (⟨S1650000x1, .i32⟩ : BufTy).Contents (Elt Ideal) :=
  broadcastInDim S1650000x1 ![0] bcast_S1650000_S1650000x1_0
    (select (cmpi .slt s (broadcastInDim S1650000 ![] bcast_S_S1650000 (constantI S_ 32 0#32)))
      (addi s (broadcastInDim S1650000 ![] bcast_S_S1650000 (constantI S_ 32 50000#32))) s)

/-- At every node, the sum over the edges arriving there of the source's row of `h` scaled by the edge's weight. -/
def aggregate128 (s d : EdgeNumbers) (n : EdgeWeights) (h : Nodes128) : Nodes128 :=
  Host.scatterAdd (F := Ideal) scatter_S50000x128_S1650000x1_S1650000x128_1_0_0_1
    (broadcastInDim S50000x128 ![] bcast_S_S50000x128 (constant (F := Ideal) S_ .f32 0x00000000#32))
    (broadcastInDim S1650000x1 ![0] bcast_S1650000_S1650000x1_0 d)
    (mulf (Host.gather gather_S50000x128_S1650000x1_S1650000x128_1_0_n_n_0_1_1128 h (indexColumn s))
      (broadcastInDim S1650000x128 ![0, 1] bcast_S1650000x1_S1650000x128_0_1
        (broadcastInDim S1650000x1 ![0] bcast_S1650000_S1650000x1_0 n)))

/-- The same for features with 64 columns. -/
def aggregate64 (s d : EdgeNumbers) (n : EdgeWeights) (h : Nodes64) : Nodes64 :=
  Host.scatterAdd (F := Ideal) scatter_S50000x64_S1650000x1_S1650000x64_1_0_0_1
    (broadcastInDim S50000x64 ![] bcast_S_S50000x64 (constant (F := Ideal) S_ .f32 0x00000000#32))
    (broadcastInDim S1650000x1 ![0] bcast_S1650000_S1650000x1_0 d)
    (mulf (Host.gather gather_S50000x64_S1650000x1_S1650000x64_1_0_n_n_0_1_164 h (indexColumn s))
      (broadcastInDim S1650000x64 ![0, 1] bcast_S1650000x1_S1650000x64_0_1
        (broadcastInDim S1650000x1 ![0] bcast_S1650000_S1650000x1_0 n)))

/-- Features times a weight matrix: entry `(r, c)` is the sum over `k` of `h (r, k) · w (k, c)`. -/
def times128 (h : Nodes128) (w : FVec Ideal S128x128 .f32) : Nodes128 :=
  Host.dotGeneral (F := Ideal) dot_S50000x128_S128x128_S50000x128_1_0_0_1_n_n none h w
def times64 (h : Nodes128) (w : FVec Ideal S128x64 .f32) : Nodes64 :=
  Host.dotGeneral (F := Ideal) dot_S50000x128_S128x64_S50000x64_1_0_0_1_n_n none h w

/-- A bias row added to every node's row, then `max (·, 0)`. -/
def biasRelu (a : Nodes128) (b : FVec Ideal S128 .f32) : Nodes128 :=
  maximumf (addf a (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))
/-- A bias row added to every node's row (the last layer has no `max`). -/
def bias64 (a : Nodes64) (b : FVec Ideal S64 .f32) : Nodes64 :=
  addf a (broadcastInDim S50000x64 ![0, 1] bcast_S1x64_S50000x64_0_1 (broadcastInDim S1x64 ![1] bcast_S64_S1x64_1 b))

/-- THE NETWORK: three layers over the same edges. -/
def network (s d : EdgeNumbers) (n : EdgeWeights) (x : Nodes128)
    (w1 : FVec Ideal S128x128 .f32) (b1 : FVec Ideal S128 .f32)
    (w2 : FVec Ideal S128x128 .f32) (b2 : FVec Ideal S128 .f32)
    (w3 : FVec Ideal S128x64 .f32) (b3 : FVec Ideal S64 .f32) : Nodes64 :=
  bias64 (aggregate64 s d n (times64 (biasRelu (aggregate128 s d n (times128
    (biasRelu (aggregate128 s d n (times128 x w1)) b1) w2)) b2) w3)) b3

open Cert.ReferenceIdeal.Read in
/-- The reference program computes the network: its result, stage by stage, is `network` of the edges' numbers and
    weights (its own first stages, of the edge list alone) and of the features, weights and biases. -/
theorem reference_eq (x0 : Nodes128) (x1 : FVec Ideal S128x128 .f32) (x2 : FVec Ideal S128 .f32)
    (x3 : FVec Ideal S128x128 .f32) (x4 : FVec Ideal S128 .f32)
    (x5 : FVec Ideal S128x64 .f32) (x6 : FVec Ideal S64 .f32)
    (x7 : (⟨S2x1600000, .i32⟩ : BufTy).Contents (Elt Ideal)) :
    val_main_v79 (F := Ideal) x0 x1 x2 x3 x4 x5 x6 x7
      = network (val_main_v3 (F := Ideal) x7) (val_main_v6 (F := Ideal) x7) (val_main_v26 (F := Ideal) x7) x0 x1 x2 x3 x4 x5 x6 := by
  set_option maxRecDepth 16384 in rfl

end Cert.Gcn

end
-- ==== Proof.Stretches.lean ====
/-
  The host operations between the kernels of the idealized kernel program, read as functions of what they find.

  The program's buffer contents at each boundary between its segments are named `W0 … W10` by its generated frame (a
  fold over the program's segments from the launch memory). Here each stretch of host operations is read at the
  buffers the following kernel stages:
  • the first stretch, from the edge list alone, leaves the edges' source numbers, destination numbers and weights —
    the same three stages the reference program starts with;
  • each later stretch leaves, from the matrix product the kernel before it wrote, the per-node sums `aggregate` of the
    gathered and weighted rows, and the layer's bias reshaped to one row.
  Nothing is computed: every statement is the operations' own composition, read back.
-/
import proofs.«117649_j11527692223233_1_alg».proof.Proof.Gen.KernelIdeal.Frame
import proofs.«117649_j11527692223233_1_alg».proof.Proof.Gcn

set_option maxRecDepth 16384

noncomputable section

namespace Cert.KernelIdeal.Stretches

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The first stretch: the edges, from the edge list -/

/-- The edges' source numbers (the list's first row, then one self-loop per node). -/
theorem edges_src : W1 m ρ c (Proc.devRef .tc main_v3)
    = Cert.ReferenceIdeal.Read.val_main_v3 (F := Ideal) (m ((c : Thread nD τ).loc main_arg7)) := by
  show StableHlo.after hostOps0 (W0 m ρ c) (Proc.devRef .tc main_v3) = _
  after_results
  rfl

/-- The edges' destination numbers (the list's second row, then the self-loops). -/
theorem edges_dst : W1 m ρ c (Proc.devRef .tc main_v6)
    = Cert.ReferenceIdeal.Read.val_main_v6 (F := Ideal) (m ((c : Thread nD τ).loc main_arg7)) := by
  show StableHlo.after hostOps0 (W0 m ρ c) (Proc.devRef .tc main_v6) = _
  after_results
  rfl

/-- The edges' weights: the product of the inverse square roots of the two endpoints' in-degrees. -/
theorem edges_weight : W1 m ρ c (Proc.devRef .tc main_v26)
    = Cert.ReferenceIdeal.Read.val_main_v26 (F := Ideal) (m ((c : Thread nD τ).loc main_arg7)) := by
  show StableHlo.after hostOps0 (W0 m ρ c) (Proc.devRef .tc main_v26) = _
  after_results_simp <;> rfl

/-! ## The stretch after the first product -/

theorem layer1_sums : W3 m ρ c (Proc.devRef .tc main_v40)
    = Cert.Gcn.aggregate128 (W2 m ρ c (Proc.devRef .tc main_v3)) (W2 m ρ c (Proc.devRef .tc main_v6))
        (W2 m ρ c (Proc.devRef .tc main_v26)) (W2 m ρ c (Proc.devRef .tc main_v27)) := by
  show StableHlo.after hostOps1 (W2 m ρ c) (Proc.devRef .tc main_v40) = _
  after_results_simp <;> rfl

theorem layer1_bias : W3 m ρ c (Proc.devRef .tc main_v41)
    = shapeCast S1x128 (W2 m ρ c (Proc.devRef .tc main_arg2)) shapeCasts_S128_S1x128 := by
  show StableHlo.after hostOps1 (W2 m ρ c) (Proc.devRef .tc main_v41) = _
  after_results
  rfl

/-! ## The stretch after the second product -/

theorem layer2_sums : W6 m ρ c (Proc.devRef .tc main_v56)
    = Cert.Gcn.aggregate128 (W5 m ρ c (Proc.devRef .tc main_v3)) (W5 m ρ c (Proc.devRef .tc main_v6))
        (W5 m ρ c (Proc.devRef .tc main_v26)) (W5 m ρ c (Proc.devRef .tc main_v43)) := by
  show StableHlo.after hostOps3 (W5 m ρ c) (Proc.devRef .tc main_v56) = _
  after_results_simp <;> rfl

theorem layer2_bias : W6 m ρ c (Proc.devRef .tc main_v57)
    = shapeCast S1x128 (W5 m ρ c (Proc.devRef .tc main_arg4)) shapeCasts_S128_S1x128 := by
  show StableHlo.after hostOps3 (W5 m ρ c) (Proc.devRef .tc main_v57) = _
  after_results
  rfl

/-! ## The stretch after the third product -/

theorem layer3_sums : W9 m ρ c (Proc.devRef .tc main_v72)
    = Cert.Gcn.aggregate64 (W8 m ρ c (Proc.devRef .tc main_v3)) (W8 m ρ c (Proc.devRef .tc main_v6))
        (W8 m ρ c (Proc.devRef .tc main_v26)) (W8 m ρ c (Proc.devRef .tc main_v59)) := by
  show StableHlo.after hostOps5 (W8 m ρ c) (Proc.devRef .tc main_v72) = _
  after_results_simp <;> rfl

theorem layer3_bias : W9 m ρ c (Proc.devRef .tc main_v73)
    = shapeCast S1x64 (W8 m ρ c (Proc.devRef .tc main_arg6)) shapeCasts_S64_S1x64 := by
  show StableHlo.after hostOps5 (W8 m ρ c) (Proc.devRef .tc main_v73) = _
  after_results
  rfl

end Cert.KernelIdeal.Stretches

end
-- ==== Proof.FoldReads.lean ====
/- Reading the run's boundary contents back.

   @main runs as ten segments: four stretches of host operations and six row-tiled kernels. The buffer contents at
   each boundary are a fold from the launch memory. This module reads that fold at the buffers the later value
   argument needs: the result array at the end of the run, each argument array at the boundary where a segment reads
   it (it still holds what it held at launch), and the three edge arrays the first stretch computes (the two index
   vectors and the edge weights), which nothing after the first stretch writes. -/
import proofs.«117649_j11527692223233_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A host stretch leaves a buffer alone when none of its operations writes it -/

/-- Closes "no operation of the stretch `ops` writes the buffer": the stretch is listed, each operation's written
    buffer is named, and the buffer in question differs from each by comparing references. -/
local macro "unwritten " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The first stretch keeps a buffer none of its operations writes. -/
theorem W1_keep (c : Dev nD) (b : Ref sig .tc)
    (h : ∀ op ∈ (hostOps0 : List (HloOp τ sig (Elt F))), (Proc.devRef .tc b : DevRef τ sig) ∉ op.writes) :
    W1 m ρ c (Proc.devRef .tc b) = W0 m ρ c (Proc.devRef .tc b) :=
  StableHlo.after_of_forall_not_mem (b := Proc.devRef .tc b) _ _ h
/-- The second stretch keeps a buffer none of its operations writes. -/
theorem W3_keep (c : Dev nD) (b : Ref sig .tc)
    (h : ∀ op ∈ (hostOps1 : List (HloOp τ sig (Elt F))), (Proc.devRef .tc b : DevRef τ sig) ∉ op.writes) :
    W3 m ρ c (Proc.devRef .tc b) = W2 m ρ c (Proc.devRef .tc b) :=
  StableHlo.after_of_forall_not_mem (b := Proc.devRef .tc b) _ _ h
/-- The third stretch keeps a buffer none of its operations writes. -/
theorem W6_keep (c : Dev nD) (b : Ref sig .tc)
    (h : ∀ op ∈ (hostOps3 : List (HloOp τ sig (Elt F))), (Proc.devRef .tc b : DevRef τ sig) ∉ op.writes) :
    W6 m ρ c (Proc.devRef .tc b) = W5 m ρ c (Proc.devRef .tc b) :=
  StableHlo.after_of_forall_not_mem (b := Proc.devRef .tc b) _ _ h

/-! ## The argument arrays, still as launched where a segment reads them

An argument is written by no host operation and by no kernel (a kernel reads it through an input window or passes it
by), so at each boundary up to the one where it is read it holds its launch contents. -/

theorem W1_arg0 (c : Dev nD) : W1 m ρ c (Proc.devRef .tc main_arg0) = m ((c : Thread nD τ).loc main_arg0) :=
  (W1_keep m ρ c main_arg0 (by unwritten hostOps0)).trans rfl
theorem W1_arg1 (c : Dev nD) : W1 m ρ c (Proc.devRef .tc main_arg1) = m ((c : Thread nD τ).loc main_arg1) :=
  (W1_keep m ρ c main_arg1 (by unwritten hostOps0)).trans rfl
theorem W1_arg2 (c : Dev nD) : W1 m ρ c (Proc.devRef .tc main_arg2) = m ((c : Thread nD τ).loc main_arg2) :=
  (W1_keep m ρ c main_arg2 (by unwritten hostOps0)).trans rfl
theorem W1_arg3 (c : Dev nD) : W1 m ρ c (Proc.devRef .tc main_arg3) = m ((c : Thread nD τ).loc main_arg3) :=
  (W1_keep m ρ c main_arg3 (by unwritten hostOps0)).trans rfl
theorem W1_arg4 (c : Dev nD) : W1 m ρ c (Proc.devRef .tc main_arg4) = m ((c : Thread nD τ).loc main_arg4) :=
  (W1_keep m ρ c main_arg4 (by unwritten hostOps0)).trans rfl
theorem W1_arg5 (c : Dev nD) : W1 m ρ c (Proc.devRef .tc main_arg5) = m ((c : Thread nD τ).loc main_arg5) :=
  (W1_keep m ρ c main_arg5 (by unwritten hostOps0)).trans rfl
theorem W1_arg6 (c : Dev nD) : W1 m ρ c (Proc.devRef .tc main_arg6) = m ((c : Thread nD τ).loc main_arg6) :=
  (W1_keep m ρ c main_arg6 (by unwritten hostOps0)).trans rfl
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W3_arg3 (c : Dev nD) : W3 m ρ c (Proc.devRef .tc main_arg3) = m ((c : Thread nD τ).loc main_arg3) :=
  (W3_keep m ρ c main_arg3 (by unwritten hostOps1)).trans (W2_arg3 m ρ c)
theorem W3_arg4 (c : Dev nD) : W3 m ρ c (Proc.devRef .tc main_arg4) = m ((c : Thread nD τ).loc main_arg4) :=
  (W3_keep m ρ c main_arg4 (by unwritten hostOps1)).trans (W2_arg4 m ρ c)
theorem W3_arg5 (c : Dev nD) : W3 m ρ c (Proc.devRef .tc main_arg5) = m ((c : Thread nD τ).loc main_arg5) :=
  (W3_keep m ρ c main_arg5 (by unwritten hostOps1)).trans (W2_arg5 m ρ c)
theorem W3_arg6 (c : Dev nD) : W3 m ρ c (Proc.devRef .tc main_arg6) = m ((c : Thread nD τ).loc main_arg6) :=
  (W3_keep m ρ c main_arg6 (by unwritten hostOps1)).trans (W2_arg6 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W5_arg4 (c : Dev nD) : W5 m ρ c (Proc.devRef .tc main_arg4) = m ((c : Thread nD τ).loc main_arg4) :=
  (W5_of_ne m ρ c main_arg4 (by decide)).trans (W4_arg4 m ρ c)
theorem W5_arg5 (c : Dev nD) : W5 m ρ c (Proc.devRef .tc main_arg5) = m ((c : Thread nD τ).loc main_arg5) :=
  (W5_of_ne m ρ c main_arg5 (by decide)).trans (W4_arg5 m ρ c)
theorem W5_arg6 (c : Dev nD) : W5 m ρ c (Proc.devRef .tc main_arg6) = m ((c : Thread nD τ).loc main_arg6) :=
  (W5_of_ne m ρ c main_arg6 (by decide)).trans (W4_arg6 m ρ c)
theorem W6_arg5 (c : Dev nD) : W6 m ρ c (Proc.devRef .tc main_arg5) = m ((c : Thread nD τ).loc main_arg5) :=
  (W6_keep m ρ c main_arg5 (by unwritten hostOps3)).trans (W5_arg5 m ρ c)
theorem W6_arg6 (c : Dev nD) : W6 m ρ c (Proc.devRef .tc main_arg6) = m ((c : Thread nD τ).loc main_arg6) :=
  (W6_keep m ρ c main_arg6 (by unwritten hostOps3)).trans (W5_arg6 m ρ c)
theorem W7_arg5 (c : Dev nD) : W7 m ρ c (Proc.devRef .tc main_arg5) = m ((c : Thread nD τ).loc main_arg5) :=
  (W7_of_ne m ρ c main_arg5 (by decide)).trans (W6_arg5 m ρ c)
theorem W7_arg6 (c : Dev nD) : W7 m ρ c (Proc.devRef .tc main_arg6) = m ((c : Thread nD τ).loc main_arg6) :=
  (W7_of_ne m ρ c main_arg6 (by decide)).trans (W6_arg6 m ρ c)
theorem W8_arg6 (c : Dev nD) : W8 m ρ c (Proc.devRef .tc main_arg6) = m ((c : Thread nD τ).loc main_arg6) :=
  (W8_of_ne m ρ c main_arg6 (by decide)).trans (W7_arg6 m ρ c)

/-! ## The edge arrays of the first stretch, unchanged afterwards

The first stretch computes the two edge-index vectors (`main_v3`, `main_v6`) and the edge weights (`main_v26`).
No kernel has one of them as a window and no later host operation writes one, so wherever a later stretch reads
them they hold what the first stretch left. -/

theorem W2_v3 (c : Dev nD) : W2 m ρ c (Proc.devRef .tc main_v3) = W1 m ρ c (Proc.devRef .tc main_v3) :=
  W2_of_ne m ρ c main_v3 (by decide)
theorem W3_v3 (c : Dev nD) : W3 m ρ c (Proc.devRef .tc main_v3) = W1 m ρ c (Proc.devRef .tc main_v3) :=
  (W3_keep m ρ c main_v3 (by unwritten hostOps1)).trans (W2_v3 m ρ c)
theorem W4_v3 (c : Dev nD) : W4 m ρ c (Proc.devRef .tc main_v3) = W1 m ρ c (Proc.devRef .tc main_v3) :=
  (W4_of_ne m ρ c main_v3 (by decide)).trans (W3_v3 m ρ c)
theorem W5_v3 (c : Dev nD) : W5 m ρ c (Proc.devRef .tc main_v3) = W1 m ρ c (Proc.devRef .tc main_v3) :=
  (W5_of_ne m ρ c main_v3 (by decide)).trans (W4_v3 m ρ c)
theorem W6_v3 (c : Dev nD) : W6 m ρ c (Proc.devRef .tc main_v3) = W1 m ρ c (Proc.devRef .tc main_v3) :=
  (W6_keep m ρ c main_v3 (by unwritten hostOps3)).trans (W5_v3 m ρ c)
theorem W7_v3 (c : Dev nD) : W7 m ρ c (Proc.devRef .tc main_v3) = W1 m ρ c (Proc.devRef .tc main_v3) :=
  (W7_of_ne m ρ c main_v3 (by decide)).trans (W6_v3 m ρ c)
theorem W8_v3 (c : Dev nD) : W8 m ρ c (Proc.devRef .tc main_v3) = W1 m ρ c (Proc.devRef .tc main_v3) :=
  (W8_of_ne m ρ c main_v3 (by decide)).trans (W7_v3 m ρ c)
theorem W2_v6 (c : Dev nD) : W2 m ρ c (Proc.devRef .tc main_v6) = W1 m ρ c (Proc.devRef .tc main_v6) :=
  W2_of_ne m ρ c main_v6 (by decide)
theorem W3_v6 (c : Dev nD) : W3 m ρ c (Proc.devRef .tc main_v6) = W1 m ρ c (Proc.devRef .tc main_v6) :=
  (W3_keep m ρ c main_v6 (by unwritten hostOps1)).trans (W2_v6 m ρ c)
theorem W4_v6 (c : Dev nD) : W4 m ρ c (Proc.devRef .tc main_v6) = W1 m ρ c (Proc.devRef .tc main_v6) :=
  (W4_of_ne m ρ c main_v6 (by decide)).trans (W3_v6 m ρ c)
theorem W5_v6 (c : Dev nD) : W5 m ρ c (Proc.devRef .tc main_v6) = W1 m ρ c (Proc.devRef .tc main_v6) :=
  (W5_of_ne m ρ c main_v6 (by decide)).trans (W4_v6 m ρ c)
theorem W6_v6 (c : Dev nD) : W6 m ρ c (Proc.devRef .tc main_v6) = W1 m ρ c (Proc.devRef .tc main_v6) :=
  (W6_keep m ρ c main_v6 (by unwritten hostOps3)).trans (W5_v6 m ρ c)
theorem W7_v6 (c : Dev nD) : W7 m ρ c (Proc.devRef .tc main_v6) = W1 m ρ c (Proc.devRef .tc main_v6) :=
  (W7_of_ne m ρ c main_v6 (by decide)).trans (W6_v6 m ρ c)
theorem W8_v6 (c : Dev nD) : W8 m ρ c (Proc.devRef .tc main_v6) = W1 m ρ c (Proc.devRef .tc main_v6) :=
  (W8_of_ne m ρ c main_v6 (by decide)).trans (W7_v6 m ρ c)
theorem W2_v26 (c : Dev nD) : W2 m ρ c (Proc.devRef .tc main_v26) = W1 m ρ c (Proc.devRef .tc main_v26) :=
  W2_of_ne m ρ c main_v26 (by decide)
theorem W3_v26 (c : Dev nD) : W3 m ρ c (Proc.devRef .tc main_v26) = W1 m ρ c (Proc.devRef .tc main_v26) :=
  (W3_keep m ρ c main_v26 (by unwritten hostOps1)).trans (W2_v26 m ρ c)
theorem W4_v26 (c : Dev nD) : W4 m ρ c (Proc.devRef .tc main_v26) = W1 m ρ c (Proc.devRef .tc main_v26) :=
  (W4_of_ne m ρ c main_v26 (by decide)).trans (W3_v26 m ρ c)
theorem W5_v26 (c : Dev nD) : W5 m ρ c (Proc.devRef .tc main_v26) = W1 m ρ c (Proc.devRef .tc main_v26) :=
  (W5_of_ne m ρ c main_v26 (by decide)).trans (W4_v26 m ρ c)
theorem W6_v26 (c : Dev nD) : W6 m ρ c (Proc.devRef .tc main_v26) = W1 m ρ c (Proc.devRef .tc main_v26) :=
  (W6_keep m ρ c main_v26 (by unwritten hostOps3)).trans (W5_v26 m ρ c)
theorem W7_v26 (c : Dev nD) : W7 m ρ c (Proc.devRef .tc main_v26) = W1 m ρ c (Proc.devRef .tc main_v26) :=
  (W7_of_ne m ρ c main_v26 (by decide)).trans (W6_v26 m ρ c)
theorem W8_v26 (c : Dev nD) : W8 m ρ c (Proc.devRef .tc main_v26) = W1 m ρ c (Proc.devRef .tc main_v26) :=
  (W8_of_ne m ρ c main_v26 (by decide)).trans (W7_v26 m ρ c)

/-! ## The run, read at the result array as well

Every weakly fair execution of @main terminates without fault, and in every final state the result array holds the
last boundary's contents while each argument array holds what it held at launch. The run is cut into the same ten
segments as in the frame theorem `Gen.frame`, with the same thread state; the only difference is that the final
state is read at the result array too. -/

set_option backward.isDefEq.respectTransparency.types false in
theorem run_result : θ_run defs (onTc (τ := τ) (main (F := F))) ⟨m, fun _ => 0, ρ⟩ (fun r => ∀ c : Dev nD,
      r.2.mem ((c.tc : Thread nD τ).loc main_v74) = W10 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v74 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Fold

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibRowsTimes.lean ====
/-
  A plain matrix product over the extended reals, as one function of its two operands.

  `rowsTimes x w` is the array whose entry `(r, c)` is the sum over `k` of `x (r, k) · w (k, c)`. Both the matrix unit's
  product into a zero accumulator and the host's `dot_general` ARE this function when their dimension numbers are the plain
  product's (the left operand contracted on its second axis, the right on its first, no batch axis): each is by definition
  the sum, over the contraction index, of the products of the operands' entries at the record's operand indices, and that
  sum is re-indexed by `k : Fin K` (`PlainDot.plain_sum`). Nothing here uses finiteness: the two sides are the same sum of
  the same products, term by term.
-/
import proofs.«117649_j11527692223233_1_alg».proof.Proof.LibPlainDot
import Idealize.ShloMosaic.PureOps.Ideal.Laws

noncomputable section

namespace Idealize.ShloMosaic.RowsTimes

open Idealize.ShloMosaic Idealize.ShloMosaic.ValueIdx

/-- Entry `(r, c)` is the sum over `k` of `x (r, k) · w (k, c)`. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

/-- The matrix unit's product into the zero accumulator, at an entry: the plain sum of products. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) (r : Fin M) (c : Fin N) :
    FloatOps.matmul d prec x w (constant ⟨2, ![M, N]⟩ .f32 0x00000000#32) (ix2 r c)
      = ∑ k : Fin K, x (ix2 r k) * w (ix2 k c) :=
  (Ideal.matmul_constant_zero_apply d prec x w (ix2 r c)).trans
    (PlainDot.plain_sum d h1 h2 h3 h4 h5 h6 hr hs (fun i j => x i * w j) r c)

/-- The host's `dot_general` of a plain product IS `rowsTimes` of its operands. -/
theorem hostDot_eq {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) :
    Host.dotGeneral (F := Ideal) d prec x w = rowsTimes x w := by
  funext i
  obtain ⟨r, c, rfl⟩ : ∃ (r : Fin M) (c : Fin N), i = ix2 r c := ⟨i 0, i 1, eq_ix2 i⟩
  unfold Host.dotGeneral
  rw [Ideal.dotGeneral_apply]
  exact PlainDot.plain_sum d h1 h2 h3 h4 h5 h6 hr hs (fun i j => x i * w j) r c

end Idealize.ShloMosaic.RowsTimes

end
-- ==== Proof.Products.lean ====
/-
  The three row-tiled matrix products, each as one function of its two operands.

  A product kernel walks ten grid points. At point `t` it sees rows `5000 t … 5000 t + 4999` of the left operand
  (a `[5000, 128]` block), the whole weight, and stores into the same rows of the result the block's product with
  the weight: entry `(p, q)` of the stored block is the sum over `k` of (left block at `(p, k)`) · (weight at
  `(k, q)`) — over the extended reals rounding to bf16 is the identity and the accumulator starts at zero, so nothing
  else is added. Row `p` of the block at point `t` is row `5000 t + p` of the operand, and the stored entry lands at
  row `5000 t + p` of the result, so each point writes its block of ONE whole-array function, the plain product
  `rowsTimes` of the operands as the region finds them. The ten row blocks fill the result (row `r` lies in the block
  of point `r / 5000`), so after the region the result array IS that product. Nothing here uses finiteness.

  The three regions differ only in which arrays they stage and in the width of the weight (128, 128, 64 columns);
  in the second and third the left block first passes through a reshape to its own shape, which is the identity.
-/
import proofs.«117649_j11527692223233_1_alg».proof.Proof.Gen.KernelIdeal.Frame
import proofs.«117649_j11527692223233_1_alg».proof.Proof.LibRowsTimes
import Idealize.ShloMosaic.Lib.Pipeline.Value

noncomputable section

namespace Cert.KernelIdeal.Products

open Cert.KernelIdeal Cert.KernelIdeal.Gen Idealize.ShloMosaic Idealize.ShloMosaic.TcCoe Idealize.ShloMosaic.ValueIdx
open Idealize.ShloMosaic.Pipeline (Dat)

/-- A store at offsets `(0, 0)` is a store at the zero offset. -/
theorem zero_offsets : (![0, 0] : Fin 2 → Nat) = fun _ => 0 := funext fun a => by fin_cases a <;> rfl

/-! ## The first product: the array `main_arg0` times the weight `main_arg1` -/

/-- One block of the product: entry `(p, q)` of what the body stores is the sum over `k` of the left block's
    entry `(p, k)` times the weight's entry `(k, q)` (rounding to bf16 is the identity on the extended reals, and
    the accumulator starts at zero). -/
theorem block0 (x0 : Vec Ideal S5000x128 .f32) (x1 : Vec Ideal S128x128 .f32) (p : Fin 5000) (q : Fin 128) :
    out0_2 (F := Ideal) x0 x1 (ix2 p q) = ∑ k : Fin 128, x0 (ix2 p k) * x1 (ix2 k q) := by
  unfold out0_2
  rw [View.canon_unit_zero zero_offsets]
  simp only [View.ld_unit_zero (S := S5000x128) zero_offsets, View.ld_unit_zero (S := S128x128) zero_offsets]
  unfold k0_pay1
  exact RowsTimes.matmul_zero_apply dot_S5000x128_S128x128_S5000x128_1_0_0_1_n_n rfl rfl rfl rfl rfl rfl rfl rfl none _ _ p q

/-- If row `p` of the left block is row `i 0` of `A`, and column `q` of the weight block is column `i 1` of `B`,
    then entry `(p, q)` of the stored block is entry `i` of the product of `A` and `B`. -/
theorem rows_of_blocks0 (x0 : Vec Ideal S5000x128 .f32) (x1 : Vec Ideal S128x128 .f32)
    (A : S50000x128.Idx → EReal) (B : S128x128.Idx → EReal) (p : Fin 5000) (q : Fin 128) (i : S50000x128.Idx)
    (hl : ∀ k : Fin 128, x0 (ix2 p k) = A (ix2 (i 0) k)) (hr : ∀ k : Fin 128, x1 (ix2 k q) = B (ix2 k (i 1))) :
    out0_2 (F := Ideal) x0 x1 (ix2 p q) = RowsTimes.rowsTimes (M := 50000) (K := 128) (N := 128) A B i := by
  refine (block0 x0 x1 p q).trans ?_
  show _ = ∑ k : Fin 128, A (ix2 (i 0) k) * B (ix2 k (i 1))
  refine Finset.sum_congr rfl fun k _ => ?_
  rw [hl k, hr k]

/-- The printed index maps over the ten grid points: the left operand's and the result's row block is the point's
    number, every other block index is zero (the weight is staged whole). -/
theorem index_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

variable (V : (c : Dev nD) → (b : Ref sig .tc) → Buf (Elt Ideal) ((c : Thread nD τ).loc b))

/-- Row `p` of the left operand's block at point `t` is row `5000 t + p` of the left operand. -/
theorem left_block0 (c : Dev nD) (t : Fin cfg0.N) (p : Fin 5000) (k : Fin 128) (r : Fin 50000)
    (hr : r.val = t.val * 5000 + p.val) :
    (iblk0 (F := Ideal) V c 0 t : Vec Ideal S5000x128 .f32) (ix2 p k) = (V c main_arg0 : S50000x128.Idx → EReal) (ix2 r k) := by
  obtain ⟨e0, e1, e2, e3, e4, e5⟩ := index_facts0 t
  unfold iblk0
  rw [View.read_apply]
  show V c main_arg0 (((cfg0.win 0).blk t).view.emb (ix2 p k)) = V c main_arg0 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight's block at any point is the whole weight. -/
theorem right_block0 (c : Dev nD) (t : Fin cfg0.N) (k q q' : Fin 128) (hq : q'.val = q.val) :
    (iblk0 (F := Ideal) V c 1 t : Vec Ideal S128x128 .f32) (ix2 k q) = (V c main_arg1 : S128x128.Idx → EReal) (ix2 k q') := by
  obtain ⟨e0, e1, e2, e3, e4, e5⟩ := index_facts0 t
  unfold iblk0
  rw [View.read_apply]
  show V c main_arg1 (((cfg0.win 1).blk t).view.emb (ix2 k q)) = V c main_arg1 (ix2 k q')
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q'.val; omega

/-- Entry `(p, q)` of the result's block at point `t` sits at row `5000 t + p`, column `q` of the result. -/
theorem out_block0 (t : Fin cfg0.N) (p : Fin 5000) (q : Fin 128) :
    ((((cfg0.win 2).blk t).view.emb (ix2 p q) : S50000x128.Idx) 0).val = t.val * 5000 + p.val
      ∧ ((((cfg0.win 2).blk t).view.emb (ix2 p q) : S50000x128.Idx) 1).val = q.val := by
  obtain ⟨e0, e1, e2, e3, e4, e5⟩ := index_facts0 t
  constructor
  · show win0_2.index t (0 : Fin 2) * 5000 + 1 * p.val = _; omega
  · show win0_2.index t (1 : Fin 2) * 128 + 1 * q.val = _; omega

/-- What point `t` writes back is block `t` of the product of the two operands as the region finds them. -/
theorem flushed0 (c : Dev nD) (t : Fin cfg0.N) :
    (dat0 (F := Ideal) V c).flushed 2 t
      = ((cfg0.win 2).blk t).view.read (Elt Ideal)
          (RowsTimes.rowsTimes (M := 50000) (K := 128) (N := 128) (V c main_arg0) (V c main_arg1)) := by
  show (cfg0.win 2).cut (grid0.coords t) ((dat0 V c).after 2 t) = _
  rw [after0_2]
  funext j
  obtain ⟨p, q, rfl⟩ : ∃ (p : Fin 5000) (q : Fin 128), j = ix2 p q := ⟨j 0, j 1, eq_ix2 j⟩
  obtain ⟨h0, h1⟩ := out_block0 t p q
  show out0_2 (iblk0 V c 0 t) (iblk0 V c 1 t) (ix2 p q)
    = RowsTimes.rowsTimes (M := 50000) (K := 128) (N := 128) (V c main_arg0) (V c main_arg1)
        (((cfg0.win 2).blk t).view.emb (ix2 p q))
  exact rows_of_blocks0 (iblk0 V c 0 t) (iblk0 V c 1 t) (V c main_arg0) (V c main_arg1) p q
    (((cfg0.win 2).blk t).view.emb (ix2 p q))
    (fun k => left_block0 V c t p k _ h0) (fun k => right_block0 V c t k q _ h1)

/-- An index of the result is in point `t`'s block iff each coordinate is in the block's range on its axis. -/
theorem mem_block0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v27).slice (win0_2.rect t)).set ↔ _
  rw [View.set_slice_whole, Rect.mem_set_unit]
  exact Iff.rfl

/-- The ten row blocks fill the result: row `r` is in the block of point `r / 5000`. -/
theorem covered0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  refine ⟨t, flush0_2 t, ?_⟩
  rw [mem_block0]
  obtain ⟨e0, e1, e2, e3, e4, e5⟩ := index_facts0 t
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- After the region the result array is the product of the two operands as the region finds them. -/
theorem product0 (c : Dev nD) :
    (dat0 (F := Ideal) V c).arrAt 2 cfg0.N
      = RowsTimes.rowsTimes (M := 50000) (K := 128) (N := 128) (V c main_arg0) (V c main_arg1) :=
  (dat0 V c).arrAt_eq_of_cover 2 _ (fun t _ => flushed0 V c t) covered0

/-! ## The second product: the array `main_v42` times the weight `main_arg3` -/

/-- One block of the product: entry `(p, q)` of what the body stores is the sum over `k` of the left block's
    entry `(p, k)` times the weight's entry `(k, q)` (the reshape of the left block to its own shape and the rounding to bf16 are the
    identity on the extended reals, and the accumulator starts at zero). -/
theorem block2 (x0 : Vec Ideal S5000x128 .f32) (x1 : Vec Ideal S128x128 .f32) (p : Fin 5000) (q : Fin 128) :
    out2_2 (F := Ideal) x0 x1 (ix2 p q) = ∑ k : Fin 128, x0 (ix2 p k) * x1 (ix2 k q) := by
  unfold out2_2
  rw [View.canon_unit_zero zero_offsets]
  simp only [View.ld_unit_zero (S := S5000x128) zero_offsets, View.ld_unit_zero (S := S128x128) zero_offsets]
  unfold k2_pay1
  rw [shapeCast_self]
  exact RowsTimes.matmul_zero_apply dot_S5000x128_S128x128_S5000x128_1_0_0_1_n_n rfl rfl rfl rfl rfl rfl rfl rfl none _ _ p q

/-- If row `p` of the left block is row `i 0` of `A`, and column `q` of the weight block is column `i 1` of `B`,
    then entry `(p, q)` of the stored block is entry `i` of the product of `A` and `B`. -/
theorem rows_of_blocks2 (x0 : Vec Ideal S5000x128 .f32) (x1 : Vec Ideal S128x128 .f32)
    (A : S50000x128.Idx → EReal) (B : S128x128.Idx → EReal) (p : Fin 5000) (q : Fin 128) (i : S50000x128.Idx)
    (hl : ∀ k : Fin 128, x0 (ix2 p k) = A (ix2 (i 0) k)) (hr : ∀ k : Fin 128, x1 (ix2 k q) = B (ix2 k (i 1))) :
    out2_2 (F := Ideal) x0 x1 (ix2 p q) = RowsTimes.rowsTimes (M := 50000) (K := 128) (N := 128) A B i := by
  refine (block2 x0 x1 p q).trans ?_
  show _ = ∑ k : Fin 128, A (ix2 (i 0) k) * B (ix2 k (i 1))
  refine Finset.sum_congr rfl fun k _ => ?_
  rw [hl k, hr k]

/-- The printed index maps over the ten grid points: the left operand's and the result's row block is the point's
    number, every other block index is zero (the weight is staged whole). -/
theorem index_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Row `p` of the left operand's block at point `t` is row `5000 t + p` of the left operand. -/
theorem left_block2 (c : Dev nD) (t : Fin cfg2.N) (p : Fin 5000) (k : Fin 128) (r : Fin 50000)
    (hr : r.val = t.val * 5000 + p.val) :
    (iblk2 (F := Ideal) V c 0 t : Vec Ideal S5000x128 .f32) (ix2 p k) = (V c main_v42 : S50000x128.Idx → EReal) (ix2 r k) := by
  obtain ⟨e0, e1, e2, e3, e4, e5⟩ := index_facts2 t
  unfold iblk2
  rw [View.read_apply]
  show V c main_v42 (((cfg2.win 0).blk t).view.emb (ix2 p k)) = V c main_v42 (ix2 r k)
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The weight's block at any point is the whole weight. -/
theorem right_block2 (c : Dev nD) (t : Fin cfg2.N) (k q q' : Fin 128) (hq : q'.val = q.val) :
    (iblk2 (F := Ideal) V c 1 t : Vec Ideal S128x128 .f32) (ix2 k q) = (V c main_arg3 : S128x128.Idx → EReal) (ix2 k q') := by
  obtain ⟨e0, e1, e2, e3, e4, e5⟩ := index_facts2 t
  unfold iblk2
  rw [View.read_apply]
  show V c main_arg3 (((cfg2.win 1).blk t).view.emb (ix2 k q)) = V c main_arg3 (ix2 k q')
  refine congrArg _ (funext fun a => Fin.ext ?_)
  match a with
  | ⟨0, _⟩ => show win2_1.index t (0 : Fin 2) * 128 + 1 * k.val = k.val; omega
  | ⟨1, _⟩ => show win2_1.index t (1 : Fin 2) * 128 + 1 * q.val = q'.val; omega

/-- Entry `(p, q)` of the result's block at point `t` sits at row `5000 t + p`, column `q` of the result. -/
theorem out_block2 (t : Fin cfg2.N) (p : Fin 5000) (q : Fin 128) :
    ((((cfg2.win 2).blk t).view.emb (ix2 p q) : S50000x128.Idx) 0).val = t.val * 5000 + p.val
      ∧ ((((cfg2.win 2).blk t).view.emb (ix2 p q) : S50000x128.Idx) 1).val = q.val := by
  obtain ⟨e0, e1, e2, e3, e4, e5⟩ := index_facts2 t
  constructor
  · show win2_2.index t (0 : Fin 2) * 5000 + 1 * p.val = _; omega
  · show win2_2.index t (1 : Fin 2) * 128 + 1 * q.val = _; omega

/-- What point `t` writes back is block `t` of the product of the two operands as the region finds them. -/
theorem flushed2 (c : Dev nD) (t : Fin cfg2.N) :
    (dat2 (F := Ideal) V c).flushed 2 t
      = ((cfg2.win 2).blk t).view.read (Elt Ideal)
          (RowsTimes.rowsTimes (M := 50000) (K := 128) (N := 128) (V c main_v42) (V c main_arg3)) := by
  show (cfg2.win 2).cut (grid2.coords t) ((dat2 V c).after 2 t) = _
  rw [after2_2]
  funext j
  obtain ⟨p, q, rfl⟩ : ∃ (p : Fin 5000) (q : Fin 128), j = ix2 p q := ⟨j 0, j 1, eq_ix2 j⟩
  obtain ⟨h0, h1⟩ := out_block2 t p q
  show out2_2 (iblk2 V c 0 t) (iblk2 V c 1 t) (ix2 p q)
    = RowsTimes.rowsTimes (M := 50000) (K := 128) (N := 128) (V c main_v42) (V c main_arg3)
        (((cfg2.win 2).blk t).view.emb (ix2 p q))
  exact rows_of_blocks2 (iblk2 V c 0 t) (iblk2 V c 1 t) (V c main_v42) (V c main_arg3) p q
    (((cfg2.win 2).blk t).view.emb (ix2 p q))
    (fun k => left_block2 V c t p k _ h0) (fun k => right_block2 V c t k q _ h1)

/-- An index of the result is in point `t`'s block iff each coordinate is in the block's range on its axis. -/
theorem mem_block2 (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v43).slice (win2_2.rect t)).set ↔ _
  rw [View.set_slice_whole, Rect.mem_set_unit]
  exact Iff.rfl

/-- The ten row blocks fill the result: row `r` is in the block of point `r / 5000`. -/
theorem covered2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  refine ⟨t, flush2_2 t, ?_⟩
  rw [mem_block2]
  obtain ⟨e0, e1, e2, e3, e4, e5⟩ := index_facts2 t
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- After the region the result array is the product of the two operands as the region finds them. -/
theorem product2 (c : Dev nD) :
    (dat2 (F := Ideal) V c).arrAt 2 cfg2.N
      = RowsTimes.rowsTimes (M := 50000) (K := 128) (N := 128) (V c main_v42) (V c main_arg3) :=
  (dat2 V c).arrAt_eq_of_cover 2 _ (fun t _ => flushed2 V c t) covered2

/-! ## The third product: the array `main_v58` times the 64-column weight `main_arg5` -/

/-- One block of the product: entry `(p, q)` of what the body stores is the sum over `k` of the left block's
    entry `(p, k)` times the weight's entry `(k, q)` (the reshape of the left block to its own shape and the rounding to bf16 are the
    identity on the extended reals, and the accumulator starts at zero). -/
theorem block4 (x0 : Vec Ideal S5000x128 .f32) (x1 : Vec Ideal S128x64 .f32) (p : Fin 5000) (q : Fin 64) :
    out4_2 (F := Ideal) x0 x1 (ix2 p q) = ∑ k : Fin 128, x0 (ix2 p k) * x1 (ix2 k q) := by
  unfold out4_2
  rw [View.canon_unit_zero zero_offsets]
  simp only [View.ld_unit_zero (S := S5000x128) zero_offsets, View.ld_unit_zero (S := S128x64) zero_offsets]
  unfold k4_pay1
  rw [shapeCast_self]
  exact RowsTimes.matmul_zero_apply dot_S5000x128_S128x64_S5000x64_1_0_0_1_n_n rfl rfl rfl rfl rfl rfl rfl rfl none _ _ p q

/-- If row `p` of the left block is row `i 0` of `A`, and column `q` of the weight block is column `i 1` of `B`,
    then entry `(p, q)` of the stored block is entry `i` of the product of `A` and `B`. -/
theorem rows_of_blocks4 (x0 : Vec Ideal S5000x128 .f32) (x1 : Vec Ideal S128x64 .f32)
    (A : S50000x128.Idx → EReal) (B : S128x64.Idx → EReal) (p : Fin 5000) (q : Fin 64) (i : S50000x64.Idx)
    (hl : ∀ k : Fin 128, x0 (ix2 p k) = A (ix2 (i 0) k)) (hr : ∀ k : Fin 128, x1 (ix2 k q) = B (ix2 k (i 1))) :
    out4_2 (F := Ideal) x0 x1 (ix2 p q) = RowsTimes.rowsTimes (M := 50000) (K := 128) (N := 64) A B i := by
  refine (block4 x0 x1 p q).trans ?_
  show _ = ∑ k : Fin 128, A (ix2 (i 0) k) * B (ix2 k (i 1))
  refine Finset.sum_congr rfl fun k _ => ?_
  rw [hl k, hr k]

/-- The printed index maps over the ten grid points: the left operand's and the result's row block is the point's
    number, every other block index is zero (the weight is staged whole). -/
theorem index_facts4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- Row `p` of the left operand's block at point `t` is row `5000 t + p` of the left operand. -/
theorem left_block4 (c : Dev nD) (t : Fin cfg4.N) (p : Fin 5000) (k : Fin 128) (r : Fin 50000)
    (hr : r.val = t.val * 5000 + p.val) :
    (iblk4 (F := Ideal) V c 0 t : Vec Ideal S5000x128 .f32) (ix2 p k) = (V c main_v58 : S50000x128.Idx → EReal) (ix2 r k) := by
  obtain ⟨e0, e1, e2, e3, e4, e5⟩ := index_facts4 t
  unfold iblk4
  rw [View.read_apply]
  show V c main_v58 (((cfg4.win 0).blk t).view.emb (ix2 p k)) = V c main_v58 (ix2 r k)
  refine congrArg _ (funext fun a => Fin.ext ?_)
  match a with
  | ⟨0, _⟩ => show win4_0.index t (0 : Fin 2) * 5000 + 1 * p.val = r.val; omega
  | ⟨1, _⟩ => show win4_0.index t (1 : Fin 2) * 128 + 1 * k.val = k.val; omega

/-- The weight's block at any point is the whole weight. -/
theorem right_block4 (c : Dev nD) (t : Fin cfg4.N) (k : Fin 128) (q q' : Fin 64) (hq : q'.val = q.val) :
    (iblk4 (F := Ideal) V c 1 t : Vec Ideal S128x64 .f32) (ix2 k q) = (V c main_arg5 : S128x64.Idx → EReal) (ix2 k q') := by
  obtain ⟨e0, e1, e2, e3, e4, e5⟩ := index_facts4 t
  unfold iblk4
  rw [View.read_apply]
  show V c main_arg5 (((cfg4.win 1).blk t).view.emb (ix2 k q)) = V c main_arg5 (ix2 k q')
  refine congrArg _ (funext fun a => Fin.ext ?_)
  match a with
  | ⟨0, _⟩ => show win4_1.index t (0 : Fin 2) * 128 + 1 * k.val = k.val; omega
  | ⟨1, _⟩ => show win4_1.index t (1 : Fin 2) * 64 + 1 * q.val = q'.val; omega

/-- Entry `(p, q)` of the result's block at point `t` sits at row `5000 t + p`, column `q` of the result. -/
theorem out_block4 (t : Fin cfg4.N) (p : Fin 5000) (q : Fin 64) :
    ((((cfg4.win 2).blk t).view.emb (ix2 p q) : S50000x64.Idx) 0).val = t.val * 5000 + p.val
      ∧ ((((cfg4.win 2).blk t).view.emb (ix2 p q) : S50000x64.Idx) 1).val = q.val := by
  obtain ⟨e0, e1, e2, e3, e4, e5⟩ := index_facts4 t
  constructor
  · show win4_2.index t (0 : Fin 2) * 5000 + 1 * p.val = _; omega
  · show win4_2.index t (1 : Fin 2) * 64 + 1 * q.val = _; omega

/-- What point `t` writes back is block `t` of the product of the two operands as the region finds them. -/
theorem flushed4 (c : Dev nD) (t : Fin cfg4.N) :
    (dat4 (F := Ideal) V c).flushed 2 t
      = ((cfg4.win 2).blk t).view.read (Elt Ideal)
          (RowsTimes.rowsTimes (M := 50000) (K := 128) (N := 64) (V c main_v58) (V c main_arg5)) := by
  show (cfg4.win 2).cut (grid4.coords t) ((dat4 V c).after 2 t) = _
  rw [after4_2]
  funext j
  obtain ⟨p, q, rfl⟩ : ∃ (p : Fin 5000) (q : Fin 64), j = ix2 p q := ⟨j 0, j 1, eq_ix2 j⟩
  obtain ⟨h0, h1⟩ := out_block4 t p q
  show out4_2 (iblk4 V c 0 t) (iblk4 V c 1 t) (ix2 p q)
    = RowsTimes.rowsTimes (M := 50000) (K := 128) (N := 64) (V c main_v58) (V c main_arg5)
        (((cfg4.win 2).blk t).view.emb (ix2 p q))
  exact rows_of_blocks4 (iblk4 V c 0 t) (iblk4 V c 1 t) (V c main_v58) (V c main_arg5) p q
    (((cfg4.win 2).blk t).view.emb (ix2 p q))
    (fun k => left_block4 V c t p k _ h0) (fun k => right_block4 V c t k q _ h1)

/-- An index of the result is in point `t`'s block iff each coordinate is in the block's range on its axis. -/
theorem mem_block4 (t : Fin cfg4.N) (i : S50000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v59).slice (win4_2.rect t)).set ↔ _
  rw [View.set_slice_whole, Rect.mem_set_unit]
  exact Iff.rfl

/-- The ten row blocks fill the result: row `r` is in the block of point `r / 5000`. -/
theorem covered4 (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  have hN : cfg4.N = 10 := N_4
  obtain ⟨t, ht⟩ : ∃ t : Fin cfg4.N, t.val = (i 0).val / 5000 := ⟨⟨(i 0).val / 5000, by rw [hN]; omega⟩, rfl⟩
  refine ⟨t, flush4_2 t, ?_⟩
  rw [mem_block4]
  obtain ⟨e0, e1, e2, e3, e4, e5⟩ := index_facts4 t
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 64 ≤ (i 1).val ∧ (i 1).val < win4_2.index t (1 : Fin 2) * 64 + 64
    omega

/-- After the region the result array is the product of the two operands as the region finds them. -/
theorem product4 (c : Dev nD) :
    (dat4 (F := Ideal) V c).arrAt 2 cfg4.N
      = RowsTimes.rowsTimes (M := 50000) (K := 128) (N := 64) (V c main_v58) (V c main_arg5) :=
  (dat4 V c).arrAt_eq_of_cover 2 _ (fun t _ => flushed4 V c t) covered4

end Cert.KernelIdeal.Products

end
-- ==== Proof.LibBiasRow.lean ====
/-
  A bias vector spread over the rows of a matrix, read at an entry.

  A `[b]` vector is turned into an `[a, b]` matrix by two `broadcast_in_dim`s: first to one row `[1, b]` (the vector's
  axis becomes the column axis), then that row to all `a` rows. Read at the entry `(r, q)`, the second broadcast reads
  the one row at `(0, q)` (the row axis of its operand is a unit axis) and the first reads the vector at `q`. The same
  vector RESHAPED to one row, read at `(0, q)`, is also the vector at `q`. So the matrix's entry `(r, q)` is the
  reshaped row's entry `(0, q)`: every row of the matrix is that one row. Nothing here depends on the element type or on
  the extents, and the side conditions of the three operations may be any proofs.
-/
import Idealize.ShloMosaic.Lib.Pipeline.Value
import Idealize.ShloMosaic.Lib.ValueIdx
import Idealize.ShloMosaic.Lib.ValueLayout

namespace Cert.BiasRow

open Idealize.ShloMosaic Idealize.ShloMosaic.ValueIdx

/-- A `[b]` vector broadcast to one row `[1, b]` reads, at `(u, q)`, the vector at `q`. -/
theorem row_apply {α : Type} {b : ℕ} (v : (⟨1, ![b]⟩ : Shape).Idx → α)
    (h1 : (⟨1, ![b]⟩ : Shape).BroadcastsInDim ⟨2, ![1, b]⟩ ![1]) (u : Fin 1) (q : Fin b) :
    broadcastInDim ⟨2, ![1, b]⟩ ![1] h1 v (ix2 u q) = v (ix1 q) := by
  refine broadcastInDim_apply _ h1 v (ix2 u q) (ix1 q) fun ax => ?_
  match ax with
  | ⟨0, _⟩ =>
    show q.val = if b = 1 then 0 else q.val
    split
    · have := q.isLt; omega
    · rfl

/-- A `[1, b]` row broadcast over `a` rows reads, at `(r, q)`, the row at `(0, q)`. -/
theorem rows_apply {α : Type} {a b : ℕ} (w : (⟨2, ![1, b]⟩ : Shape).Idx → α)
    (h2 : (⟨2, ![1, b]⟩ : Shape).BroadcastsInDim ⟨2, ![a, b]⟩ ![0, 1]) (r : Fin a) (q : Fin b) :
    broadcastInDim ⟨2, ![a, b]⟩ ![0, 1] h2 w (ix2 r q) = w (ix2 (0 : Fin 1) q) := by
  refine broadcastInDim_apply _ h2 w (ix2 r q) (ix2 (0 : Fin 1) q) fun ax => ?_
  match ax with
  | ⟨0, _⟩ => rfl
  | ⟨1, _⟩ =>
    show q.val = if b = 1 then 0 else q.val
    split
    · have := q.isLt; omega
    · rfl

/-- THE BIAS OVER THE ROWS: the vector broadcast to one row and then over `a` rows, read at any entry, is the vector
    reshaped to one row read at that entry's column: both are the vector at the column. -/
theorem row_over_rows_eq_cast {α : Type} {a b : ℕ} (v : (⟨1, ![b]⟩ : Shape).Idx → α)
    (hc : (⟨1, ![b]⟩ : Shape).ShapeCasts ⟨2, ![1, b]⟩)
    (h1 : (⟨1, ![b]⟩ : Shape).BroadcastsInDim ⟨2, ![1, b]⟩ ![1])
    (h2 : (⟨2, ![1, b]⟩ : Shape).BroadcastsInDim ⟨2, ![a, b]⟩ ![0, 1])
    (i : (⟨2, ![a, b]⟩ : Shape).Idx) :
    broadcastInDim ⟨2, ![a, b]⟩ ![0, 1] h2 (broadcastInDim ⟨2, ![1, b]⟩ ![1] h1 v) i
      = shapeCast ⟨2, ![1, b]⟩ v hc (ix2 (0 : Fin 1) (i 1)) := by
  obtain ⟨r, q, rfl⟩ : ∃ (r : Fin a) (q : Fin b), i = ix2 r q := ⟨i 0, i 1, eq_ix2 i⟩
  show _ = shapeCast ⟨2, ![1, b]⟩ v hc (ix2 (0 : Fin 1) q)
  rw [rows_apply, row_apply, shapeCast_a_1a_apply]

end Cert.BiasRow
-- ==== Proof.LibRowBias.lean ====
/-
  A bias row added to every row of a matrix, with or without a clamp at zero from below, over the extended reals.

  `addRow x r` adds to each entry `(p, q)` of an `[a, b]` matrix the entry `(0, q)` of a one-row array `[1, b]`;
  `reluAddRow x r` then takes the maximum with zero (the float whose word is `0x00000000`, kept unevaluated). A host
  program that spreads a `[b]` vector over the rows of the matrix by two `broadcast_in_dim`s (`[b] → [1, b]` on the column
  axis, then `[1, b] → [a, b]`) and adds it — and, for the clamp, takes the maximum with a zero constant broadcast from a
  scalar — computes exactly these functions of the vector RESHAPED to one row: at `(p, q)` both read the vector at `q`.
  So a kernel that is handed the bias as a `[1, b]` row and a host line that broadcasts the `[b]` vector meet in `addRow` /
  `reluAddRow`. Any extents, any proofs of the operations' side conditions; nothing here needs finiteness.
-/
import proofs.«117649_j11527692223233_1_alg».proof.Proof.LibBiasRow
import Idealize.ShloMosaic.PureOps.Ideal
import Idealize.ShloMosaic.Lib.Pipeline.Value
import Idealize.ShloMosaic.Lib.ValueIdx
import Idealize.ShloMosaic.Lib.ValueLayout

noncomputable section

namespace Cert.RowBias

open Idealize.ShloMosaic Idealize.ShloMosaic.ValueIdx

/-- Entry `(p, q)` of the matrix plus entry `(0, q)` of the row. -/
def addRow {a b : ℕ} (x : (⟨2, ![a, b]⟩ : Shape).Idx → EReal) (r : (⟨2, ![1, b]⟩ : Shape).Idx → EReal) :
    (⟨2, ![a, b]⟩ : Shape).Idx → EReal :=
  fun i => x i + r (ix2 (0 : Fin 1) (i 1))

/-- The same, then the maximum with zero (the word `0x00000000` read as a float). -/
def reluAddRow {a b : ℕ} (x : (⟨2, ![a, b]⟩ : Shape).Idx → EReal) (r : (⟨2, ![1, b]⟩ : Shape).Idx → EReal) :
    (⟨2, ![a, b]⟩ : Shape).Idx → EReal :=
  fun i => max (x i + r (ix2 (0 : Fin 1) (i 1))) (Ideal.ofBits .f32 0x00000000#32)

/-- A scalar broadcast to a matrix reads the scalar at every entry. -/
theorem scalar_over_matrix_apply {α : Type} {a b : ℕ} (z : (⟨0, ![]⟩ : Shape).Idx → α)
    (h0 : (⟨0, ![]⟩ : Shape).BroadcastsInDim ⟨2, ![a, b]⟩ ![]) (i : (⟨2, ![a, b]⟩ : Shape).Idx) :
    broadcastInDim ⟨2, ![a, b]⟩ ![] h0 z i = z ix0 :=
  broadcastInDim_apply _ h0 z i ix0 fun ax => ax.elim0

/-- THE HOST'S BIAS ADD: the matrix plus the vector spread over its rows by two `broadcast_in_dim`s is `addRow` of the
    matrix and the vector reshaped to one row. -/
theorem host_addRow {a b : ℕ} (x : FVec Ideal ⟨2, ![a, b]⟩ .f32) (v : FVec Ideal ⟨1, ![b]⟩ .f32)
    (hc : (⟨1, ![b]⟩ : Shape).ShapeCasts ⟨2, ![1, b]⟩)
    (h1 : (⟨1, ![b]⟩ : Shape).BroadcastsInDim ⟨2, ![1, b]⟩ ![1])
    (h2 : (⟨2, ![1, b]⟩ : Shape).BroadcastsInDim ⟨2, ![a, b]⟩ ![0, 1]) :
    addf x (broadcastInDim ⟨2, ![a, b]⟩ ![0, 1] h2 (broadcastInDim ⟨2, ![1, b]⟩ ![1] h1 v))
      = addRow x (shapeCast ⟨2, ![1, b]⟩ v hc) := by
  funext i
  show x i + broadcastInDim ⟨2, ![a, b]⟩ ![0, 1] h2 (broadcastInDim ⟨2, ![1, b]⟩ ![1] h1 v) i
    = x i + shapeCast ⟨2, ![1, b]⟩ v hc (ix2 (0 : Fin 1) (i 1))
  rw [Cert.BiasRow.row_over_rows_eq_cast v hc h1 h2 i]

/-- THE HOST'S BIAS ADD AND CLAMP: the maximum of that sum with a broadcast zero constant is `reluAddRow`. -/
theorem host_reluAddRow {a b : ℕ} (x : FVec Ideal ⟨2, ![a, b]⟩ .f32) (v : FVec Ideal ⟨1, ![b]⟩ .f32)
    (hc : (⟨1, ![b]⟩ : Shape).ShapeCasts ⟨2, ![1, b]⟩)
    (h1 : (⟨1, ![b]⟩ : Shape).BroadcastsInDim ⟨2, ![1, b]⟩ ![1])
    (h2 : (⟨2, ![1, b]⟩ : Shape).BroadcastsInDim ⟨2, ![a, b]⟩ ![0, 1])
    (h0 : (⟨0, ![]⟩ : Shape).BroadcastsInDim ⟨2, ![a, b]⟩ ![]) :
    maximumf (addf x (broadcastInDim ⟨2, ![a, b]⟩ ![0, 1] h2 (broadcastInDim ⟨2, ![1, b]⟩ ![1] h1 v)))
        (broadcastInDim ⟨2, ![a, b]⟩ ![] h0 (constant (F := Ideal) ⟨0, ![]⟩ .f32 0x00000000#32))
      = reluAddRow x (shapeCast ⟨2, ![1, b]⟩ v hc) := by
  funext i
  show max (x i + broadcastInDim ⟨2, ![a, b]⟩ ![0, 1] h2 (broadcastInDim ⟨2, ![1, b]⟩ ![1] h1 v) i)
      (broadcastInDim ⟨2, ![a, b]⟩ ![] h0 (constant (F := Ideal) ⟨0, ![]⟩ .f32 0x00000000#32) i)
    = max (x i + shapeCast ⟨2, ![1, b]⟩ v hc (ix2 (0 : Fin 1) (i 1))) (Ideal.ofBits .f32 0x00000000#32)
  rw [Cert.BiasRow.row_over_rows_eq_cast v hc h1 h2 i, scalar_over_matrix_apply]
  rfl

end Cert.RowBias

end
-- ==== Proof.BiasRows.lean ====
/-
  The three row-tiled bias kernels, each as one function of the two arrays it reads.

  A bias kernel walks ten grid points. At point `t` it sees rows `5000 t … 5000 t + 4999` of the per-node sums, the bias
  row `[1, b]` whole, and stores into the same rows of its result the block plus the bias row spread over the block's
  rows (and, in the first two layers, the maximum of that with zero): entry `(p, q)` of the stored block is the block's
  entry `(p, q)` plus the row's entry `(0, q)`. So each point writes its block of ONE whole-array function, `reluAddRow`
  (`addRow` for the last kernel) of the two arrays as the region finds them, and the ten row blocks fill the result
  (row `r` lies in the block of point `r / 5000`): after the region the result array IS that function.
-/
import proofs.«117649_j11527692223233_1_alg».proof.Proof.Gen.KernelIdeal.Frame
import proofs.«117649_j11527692223233_1_alg».proof.Proof.LibRowBias
import Idealize.ShloMosaic.Lib.Pipeline.Value
import Idealize.ShloMosaic.Lib.ValueIdx
import Idealize.ShloMosaic.Lib.ValueLayout

noncomputable section

namespace Cert.KernelIdeal.BiasRegions

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block load or store, as the constant function. -/
theorem zero_offsets : (![0, 0] : Fin 2 → Nat) = fun _ => 0 := funext fun a => by fin_cases a <;> rfl

variable (V : (c : Dev nD) → (b : Ref sig .tc) → Buf (Elt Ideal) ((c : Thread nD τ).loc b))

/-! ## Region 1: bias and clamp over `[50000, 128]` in ten row blocks of `5000` -/

/-- ONE BLOCK, AT AN ENTRY: what the body leaves at `(p, q)` of its result block is the sum of the aggregate's entry and the bias row's entry of that column, clamped at zero from below. -/
theorem block1_apply (x0 : Vec Ideal S5000x128 .f32) (x1 : Vec Ideal S1x128 .f32) (p : Fin 5000) (q : Fin 128) :
    out1_2 x0 x1 (ix2 p q) = max (x0 (ix2 p q) + x1 (ix2 (0 : Fin 1) q)) (Ideal.ofBits .f32 0x00000000#32) := by
  unfold out1_2
  rw [View.canon_unit_zero zero_offsets]
  simp only [View.ld_unit_zero (S := S5000x128) zero_offsets, View.ld_unit_zero (S := S1x128) zero_offsets]
  unfold k1_pay1
  simp only [shapeCast_self]
  show max (x0 (ix2 p q) + broadcastTo S5000x128 x1 broadcasts_S1x128_S5000x128 (ix2 p q)) (Ideal.ofBits .f32 0x00000000#32) = _
  rw [broadcastTo_1b_ab_apply]

/-- The same entry as an entry of `reluAddRow` of whole arrays: when the block's entry is the array's entry `i`, the bias
    block is the whole bias row, and `i` is in the same column. -/
theorem block1_eq (x0 : Vec Ideal S5000x128 .f32) (x1 : Vec Ideal S1x128 .f32)
    (A : S50000x128.Idx → EReal) (B : S1x128.Idx → EReal) (j : S5000x128.Idx) (i : S50000x128.Idx)
    (h0 : x0 j = A i) (h1 : x1 = B) (hi : (i 1).val = (j 1).val) :
    out1_2 x0 x1 j = Cert.RowBias.reluAddRow (a := 50000) (b := 128) A B i := by
  obtain ⟨p, q, rfl⟩ : ∃ (p : Fin 5000) (q : Fin 128), j = ix2 p q := ⟨j 0, j 1, eq_ix2 j⟩
  subst h1
  have e : q = (i 1 : Fin 128) := Fin.ext hi.symm
  rw [block1_apply x0 x1 p q, h0]
  show max (A i + x1 (ix2 (0 : Fin 1) q)) (Ideal.ofBits .f32 0x00000000#32) = max (A i + x1 (ix2 (0 : Fin 1) (i 1))) (Ideal.ofBits .f32 0x00000000#32)
  rw [e]

/-- The three index maps over the grid: the aggregate's and the result's block index is `(t, 0)`, the bias row's `(0, 0)`. -/
theorem block_indices1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of `reluAddRow` of the aggregate and the bias row as the region finds them. -/
theorem written1 (c : Dev nD) (t : Fin cfg1.N) :
    (dat1 (F := Ideal) V c).flushed 2 t
      = ((cfg1.win 2).blk t).view.read (Elt Ideal) (Cert.RowBias.reluAddRow (a := 50000) (b := 128) (V c main_v40) (V c main_v41)) := by
  show (cfg1.win 2).cut (grid1.coords t) ((dat1 V c).after 2 t) = _
  rw [after1_2]
  obtain ⟨e00, e01, e10, e11, e20, e21⟩ := block_indices1 t
  funext j
  show out1_2 (iblk1 V c 0 t) (iblk1 V c 1 t) j
    = Cert.RowBias.reluAddRow (a := 50000) (b := 128) (V c main_v40) (V c main_v41) (((cfg1.win 2).blk t).view.emb j)
  refine block1_eq _ _ _ _ j _ ?_ ?_ ?_
  · show V c main_v40 (((cfg1.win 0).blk t).view.emb j) = V c main_v40 (((cfg1.win 2).blk t).view.emb j)
    have h : ((cfg1.win 0).blk t).view.emb j = ((cfg1.win 2).blk t).view.emb j := by
      funext a; apply Fin.ext
      match a with
      | ⟨0, _⟩ => show win1_0.index t (0 : Fin 2) * 5000 + 1 * (j 0).val = win1_2.index t (0 : Fin 2) * 5000 + 1 * (j 0).val; omega
      | ⟨1, _⟩ => show win1_0.index t (1 : Fin 2) * 128 + 1 * (j 1).val = win1_2.index t (1 : Fin 2) * 128 + 1 * (j 1).val; omega
    rw [h]
  · funext k
    show V c main_v41 (((cfg1.win 1).blk t).view.emb k) = V c main_v41 k
    have h : ((cfg1.win 1).blk t).view.emb k = k := by
      funext a; apply Fin.ext
      match a with
      | ⟨0, _⟩ => show win1_1.index t (0 : Fin 2) * 1 + 1 * (k 0).val = (k 0).val; omega
      | ⟨1, _⟩ => show win1_1.index t (1 : Fin 2) * 128 + 1 * (k 1).val = (k 1).val; omega
    rw [h]
  · show win1_2.index t (1 : Fin 2) * 128 + 1 * (j 1).val = (j 1).val
    omega

/-- An entry of the result array is in point `t`'s block iff each coordinate is in the block's range on its axis. -/
theorem mem_block1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v42).slice (win1_2.rect t)).set ↔ _
  rw [View.set_slice_whole, Rect.mem_set_unit]
  exact Iff.rfl

/-- THE BLOCKS TILE THE ROWS: row `r` is in the block of point `r / 5000`. -/
theorem rows_covered1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; omega⟩
  obtain ⟨e00, e01, e10, e11, e20, e21⟩ := block_indices1 t
  have ht : t.val = (i 0).val / 5000 := rfl
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE RESULT ARRAY of region 1: `reluAddRow` of the aggregate and the bias row as the region finds them. -/
theorem bias1 (c : Dev nD) :
    (dat1 (F := Ideal) V c).arrAt 2 cfg1.N
      = Cert.RowBias.reluAddRow (a := 50000) (b := 128) (V c main_v40) (V c main_v41) :=
  (dat1 (F := Ideal) V c).arrAt_eq_of_cover 2 _ (fun t _ => written1 V c t) rows_covered1

/-! ## Region 3: bias and clamp over `[50000, 128]` in ten row blocks of `5000` -/

/-- ONE BLOCK, AT AN ENTRY: what the body leaves at `(p, q)` of its result block is the sum of the aggregate's entry and the bias row's entry of that column, clamped at zero from below. -/
theorem block3_apply (x0 : Vec Ideal S5000x128 .f32) (x1 : Vec Ideal S1x128 .f32) (p : Fin 5000) (q : Fin 128) :
    out3_2 x0 x1 (ix2 p q) = max (x0 (ix2 p q) + x1 (ix2 (0 : Fin 1) q)) (Ideal.ofBits .f32 0x00000000#32) := by
  unfold out3_2
  rw [View.canon_unit_zero zero_offsets]
  simp only [View.ld_unit_zero (S := S5000x128) zero_offsets, View.ld_unit_zero (S := S1x128) zero_offsets]
  unfold k3_pay1
  simp only [shapeCast_self]
  show max (x0 (ix2 p q) + broadcastTo S5000x128 x1 broadcasts_S1x128_S5000x128 (ix2 p q)) (Ideal.ofBits .f32 0x00000000#32) = _
  rw [broadcastTo_1b_ab_apply]

/-- The same entry as an entry of `reluAddRow` of whole arrays: when the block's entry is the array's entry `i`, the bias
    block is the whole bias row, and `i` is in the same column. -/
theorem block3_eq (x0 : Vec Ideal S5000x128 .f32) (x1 : Vec Ideal S1x128 .f32)
    (A : S50000x128.Idx → EReal) (B : S1x128.Idx → EReal) (j : S5000x128.Idx) (i : S50000x128.Idx)
    (h0 : x0 j = A i) (h1 : x1 = B) (hi : (i 1).val = (j 1).val) :
    out3_2 x0 x1 j = Cert.RowBias.reluAddRow (a := 50000) (b := 128) A B i := by
  obtain ⟨p, q, rfl⟩ : ∃ (p : Fin 5000) (q : Fin 128), j = ix2 p q := ⟨j 0, j 1, eq_ix2 j⟩
  subst h1
  have e : q = (i 1 : Fin 128) := Fin.ext hi.symm
  rw [block3_apply x0 x1 p q, h0]
  show max (A i + x1 (ix2 (0 : Fin 1) q)) (Ideal.ofBits .f32 0x00000000#32) = max (A i + x1 (ix2 (0 : Fin 1) (i 1))) (Ideal.ofBits .f32 0x00000000#32)
  rw [e]

/-- The three index maps over the grid: the aggregate's and the result's block index is `(t, 0)`, the bias row's `(0, 0)`. -/
theorem block_indices3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- WHAT POINT `t` WRITES BACK is block `t` of `reluAddRow` of the aggregate and the bias row as the region finds them. -/
theorem written3 (c : Dev nD) (t : Fin cfg3.N) :
    (dat3 (F := Ideal) V c).flushed 2 t
      = ((cfg3.win 2).blk t).view.read (Elt Ideal) (Cert.RowBias.reluAddRow (a := 50000) (b := 128) (V c main_v56) (V c main_v57)) := by
  show (cfg3.win 2).cut (grid3.coords t) ((dat3 V c).after 2 t) = _
  rw [after3_2]
  obtain ⟨e00, e01, e10, e11, e20, e21⟩ := block_indices3 t
  funext j
  show out3_2 (iblk3 V c 0 t) (iblk3 V c 1 t) j
    = Cert.RowBias.reluAddRow (a := 50000) (b := 128) (V c main_v56) (V c main_v57) (((cfg3.win 2).blk t).view.emb j)
  refine block3_eq _ _ _ _ j _ ?_ ?_ ?_
  · show V c main_v56 (((cfg3.win 0).blk t).view.emb j) = V c main_v56 (((cfg3.win 2).blk t).view.emb j)
    have h : ((cfg3.win 0).blk t).view.emb j = ((cfg3.win 2).blk t).view.emb j := by
      funext a; apply Fin.ext
      match a with
      | ⟨0, _⟩ => show win3_0.index t (0 : Fin 2) * 5000 + 1 * (j 0).val = win3_2.index t (0 : Fin 2) * 5000 + 1 * (j 0).val; omega
      | ⟨1, _⟩ => show win3_0.index t (1 : Fin 2) * 128 + 1 * (j 1).val = win3_2.index t (1 : Fin 2) * 128 + 1 * (j 1).val; omega
    rw [h]
  · funext k
    show V c main_v57 (((cfg3.win 1).blk t).view.emb k) = V c main_v57 k
    have h : ((cfg3.win 1).blk t).view.emb k = k := by
      funext a; apply Fin.ext
      match a with
      | ⟨0, _⟩ => show win3_1.index t (0 : Fin 2) * 1 + 1 * (k 0).val = (k 0).val; omega
      | ⟨1, _⟩ => show win3_1.index t (1 : Fin 2) * 128 + 1 * (k 1).val = (k 1).val; omega
    rw [h]
  · show win3_2.index t (1 : Fin 2) * 128 + 1 * (j 1).val = (j 1).val
    omega

/-- An entry of the result array is in point `t`'s block iff each coordinate is in the block's range on its axis. -/
theorem mem_block3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v58).slice (win3_2.rect t)).set ↔ _
  rw [View.set_slice_whole, Rect.mem_set_unit]
  exact Iff.rfl

/-- THE BLOCKS TILE THE ROWS: row `r` is in the block of point `r / 5000`. -/
theorem rows_covered3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 10 := N_3
  let t : Fin cfg3.N := ⟨(i 0).val / 5000, by show (i 0).val / 5000 < grid3.N; omega⟩
  obtain ⟨e00, e01, e10, e11, e20, e21⟩ := block_indices3 t
  have ht : t.val = (i 0).val / 5000 := rfl
  refine ⟨t, flush3_2 t, ?_⟩
  rw [mem_block3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- THE RESULT ARRAY of region 3: `reluAddRow` of the aggregate and the bias row as the region finds them. -/
theorem bias3 (c : Dev nD) :
    (dat3 (F := Ideal) V c).arrAt 2 cfg3.N
      = Cert.RowBias.reluAddRow (a := 50000) (b := 128) (V c main_v56) (V c main_v57) :=
  (dat3 (F := Ideal) V c).arrAt_eq_of_cover 2 _ (fun t _ => written3 V c t) rows_covered3

/-! ## Region 5: bias over `[50000, 64]` in ten row blocks of `5000` -/

/-- ONE BLOCK, AT AN ENTRY: what the body leaves at `(p, q)` of its result block is the sum of the aggregate's entry and the bias row's entry of that column. -/
theorem block5_apply (x0 : Vec Ideal S5000x64 .f32) (x1 : Vec Ideal S1x64 .f32) (p : Fin 5000) (q : Fin 64) :
    out5_2 x0 x1 (ix2 p q) = x0 (ix2 p q) + x1 (ix2 (0 : Fin 1) q) := by
  unfold out5_2
  rw [View.canon_unit_zero zero_offsets]
  simp only [View.ld_unit_zero (S := S5000x64) zero_offsets, View.ld_unit_zero (S := S1x64) zero_offsets]
  unfold k5_pay1
  simp only [shapeCast_self]
  show x0 (ix2 p q) + broadcastTo S5000x64 x1 broadcasts_S1x64_S5000x64 (ix2 p q) = _
  rw [broadcastTo_1b_ab_apply]

/-- The same entry as an entry of `addRow` of whole arrays: when the block's entry is the array's entry `i`, the bias
    block is the whole bias row, and `i` is in the same column. -/
theorem block5_eq (x0 : Vec Ideal S5000x64 .f32) (x1 : Vec Ideal S1x64 .f32)
    (A : S50000x64.Idx → EReal) (B : S1x64.Idx → EReal) (j : S5000x64.Idx) (i : S50000x64.Idx)
    (h0 : x0 j = A i) (h1 : x1 = B) (hi : (i 1).val = (j 1).val) :
    out5_2 x0 x1 j = Cert.RowBias.addRow (a := 50000) (b := 64) A B i := by
  obtain ⟨p, q, rfl⟩ : ∃ (p : Fin 5000) (q : Fin 64), j = ix2 p q := ⟨j 0, j 1, eq_ix2 j⟩
  subst h1
  have e : q = (i 1 : Fin 64) := Fin.ext hi.symm
  rw [block5_apply x0 x1 p q, h0]
  show A i + x1 (ix2 (0 : Fin 1) q) = A i + x1 (ix2 (0 : Fin 1) (i 1))
  rw [e]

/-- The three index maps over the grid: the aggregate's and the result's block index is `(t, 0)`, the bias row's `(0, 0)`. -/
theorem block_indices5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- WHAT POINT `t` WRITES BACK is block `t` of `addRow` of the aggregate and the bias row as the region finds them. -/
theorem written5 (c : Dev nD) (t : Fin cfg5.N) :
    (dat5 (F := Ideal) V c).flushed 2 t
      = ((cfg5.win 2).blk t).view.read (Elt Ideal) (Cert.RowBias.addRow (a := 50000) (b := 64) (V c main_v72) (V c main_v73)) := by
  show (cfg5.win 2).cut (grid5.coords t) ((dat5 V c).after 2 t) = _
  rw [after5_2]
  obtain ⟨e00, e01, e10, e11, e20, e21⟩ := block_indices5 t
  funext j
  show out5_2 (iblk5 V c 0 t) (iblk5 V c 1 t) j
    = Cert.RowBias.addRow (a := 50000) (b := 64) (V c main_v72) (V c main_v73) (((cfg5.win 2).blk t).view.emb j)
  refine block5_eq _ _ _ _ j _ ?_ ?_ ?_
  · show V c main_v72 (((cfg5.win 0).blk t).view.emb j) = V c main_v72 (((cfg5.win 2).blk t).view.emb j)
    have h : ((cfg5.win 0).blk t).view.emb j = ((cfg5.win 2).blk t).view.emb j := by
      funext a; apply Fin.ext
      match a with
      | ⟨0, _⟩ => show win5_0.index t (0 : Fin 2) * 5000 + 1 * (j 0).val = win5_2.index t (0 : Fin 2) * 5000 + 1 * (j 0).val; omega
      | ⟨1, _⟩ => show win5_0.index t (1 : Fin 2) * 64 + 1 * (j 1).val = win5_2.index t (1 : Fin 2) * 64 + 1 * (j 1).val; omega
    rw [h]
  · funext k
    show V c main_v73 (((cfg5.win 1).blk t).view.emb k) = V c main_v73 k
    have h : ((cfg5.win 1).blk t).view.emb k = k := by
      funext a; apply Fin.ext
      match a with
      | ⟨0, _⟩ => show win5_1.index t (0 : Fin 2) * 1 + 1 * (k 0).val = (k 0).val; omega
      | ⟨1, _⟩ => show win5_1.index t (1 : Fin 2) * 64 + 1 * (k 1).val = (k 1).val; omega
    rw [h]
  · show win5_2.index t (1 : Fin 2) * 64 + 1 * (j 1).val = (j 1).val
    omega

/-- An entry of the result array is in point `t`'s block iff each coordinate is in the block's range on its axis. -/
theorem mem_block5 (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v74).slice (win5_2.rect t)).set ↔ _
  rw [View.set_slice_whole, Rect.mem_set_unit]
  exact Iff.rfl

/-- THE BLOCKS TILE THE ROWS: row `r` is in the block of point `r / 5000`. -/
theorem rows_covered5 (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  have hN : grid5.N = 10 := N_5
  let t : Fin cfg5.N := ⟨(i 0).val / 5000, by show (i 0).val / 5000 < grid5.N; omega⟩
  obtain ⟨e00, e01, e10, e11, e20, e21⟩ := block_indices5 t
  have ht : t.val = (i 0).val / 5000 := rfl
  refine ⟨t, flush5_2 t, ?_⟩
  rw [mem_block5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- THE RESULT ARRAY of region 5: `addRow` of the aggregate and the bias row as the region finds them. -/
theorem bias5 (c : Dev nD) :
    (dat5 (F := Ideal) V c).arrAt 2 cfg5.N
      = Cert.RowBias.addRow (a := 50000) (b := 64) (V c main_v72) (V c main_v73) :=
  (dat5 (F := Ideal) V c).arrAt_eq_of_cover 2 _ (fun t _ => written5 V c t) rows_covered5

end Cert.KernelIdeal.BiasRegions

end
-- ==== Proof.Network.lean ====
/-
  The idealized kernel program computes the network.

  Its run is six row-tiled kernels among host operations. Read backwards from the result array:
  • the last kernel adds the third layer's bias row to every row of the third layer's per-node sums;
  • those sums are `aggregate` of the third matrix product, which the kernel before wrote: the second layer's output
    times the third weight matrix, entry `(r, c)` the sum over `k` of the products — the same sum the host's
    `dot_general` is, so the product is `times`;
  • the second layer's output is the second layer's sums plus its bias row, then `max (·, 0)`, written by a bias kernel
    that reads the bias as ONE row broadcast inside the kernel — entry `(r, q)` reads the row at `(0, q)`, exactly what the
    host's two broadcasts of the bias vector read, so the step is `biasRelu`;
  • and so on down to the first product of the input features with the first weight matrix.
  The edges' numbers and weights are written once by the first host stretch and read, unchanged, by each later one.
  No algebra on the extended reals is needed and no input has to be finite: layer by layer the two programs' values are
  the same sums of the same products.
-/
import proofs.«117649_j11527692223233_1_alg».proof.Proof.Gen.KernelIdeal.Frame
import proofs.«117649_j11527692223233_1_alg».proof.Proof.Gcn
import proofs.«117649_j11527692223233_1_alg».proof.Proof.Stretches
import proofs.«117649_j11527692223233_1_alg».proof.Proof.FoldReads
import proofs.«117649_j11527692223233_1_alg».proof.Proof.Products
import proofs.«117649_j11527692223233_1_alg».proof.Proof.BiasRows

set_option maxRecDepth 16384

noncomputable section

namespace Cert.KernelIdeal.Network

open Cert.KernelIdeal Cert.KernelIdeal.Gen Idealize.ShloMosaic Idealize.ShloMosaic.TcCoe Idealize.SL.Sem
open Cert.Gcn Cert.KernelIdeal.Stretches Cert.KernelIdeal.Fold Cert.KernelIdeal.Products Cert.KernelIdeal.BiasRegions

/-! ## The two computed steps of a layer, in the host's form -/

/-- A plain product of features with a `[128, 128]` weight matrix is the host's `dot_general`. -/
theorem times128_eq (x : FVec Ideal S50000x128 .f32) (w : FVec Ideal S128x128 .f32) :
    RowsTimes.rowsTimes (M := 50000) (K := 128) (N := 128) x w = times128 x w :=
  (RowsTimes.hostDot_eq Cert.ReferenceIdeal.dot_S50000x128_S128x128_S50000x128_1_0_0_1_n_n
    rfl rfl rfl rfl rfl rfl rfl rfl none x w).symm

/-- The same for the `[128, 64]` weight matrix. -/
theorem times64_eq (x : FVec Ideal S50000x128 .f32) (w : FVec Ideal S128x64 .f32) :
    RowsTimes.rowsTimes (M := 50000) (K := 128) (N := 64) x w = times64 x w :=
  (RowsTimes.hostDot_eq Cert.ReferenceIdeal.dot_S50000x128_S128x64_S50000x64_1_0_0_1_n_n
    rfl rfl rfl rfl rfl rfl rfl rfl none x w).symm

/-- Adding the bias reshaped to one row to every row, then `max (·, 0)`, is the host's bias step. -/
theorem biasRelu_eq (a : FVec Ideal S50000x128 .f32) (b : FVec Ideal S128 .f32) :
    Cert.RowBias.reluAddRow (a := 50000) (b := 128) a (shapeCast S1x128 b shapeCasts_S128_S1x128) = biasRelu a b :=
  (Cert.RowBias.host_reluAddRow a b shapeCasts_S128_S1x128 Cert.ReferenceIdeal.Gen.bcast_S128_S1x128_1
    Cert.ReferenceIdeal.Gen.bcast_S1x128_S50000x128_0_1 Cert.ReferenceIdeal.Gen.bcast_S_S50000x128).symm

/-- The last layer's bias step (no `max`). -/
theorem bias64_eq (a : FVec Ideal S50000x64 .f32) (b : FVec Ideal S64 .f32) :
    Cert.RowBias.addRow (a := 50000) (b := 64) a (shapeCast S1x64 b shapeCasts_S64_S1x64) = bias64 a b :=
  (Cert.RowBias.host_addRow a b shapeCasts_S64_S1x64 Cert.ReferenceIdeal.Gen.bcast_S64_S1x64_1
    Cert.ReferenceIdeal.Gen.bcast_S1x64_S50000x64_0_1).symm

variable (m : (ℓ : Loc nD τ sig) → Buf (Elt Ideal) ℓ) (ρ : Dev nD → PrngReg) (c : Dev nD)

/-- The edge list as launched. -/
abbrev edgeList : (⟨Cert.ReferenceIdeal.S2x1600000, .i32⟩ : BufTy).Contents (Elt Ideal) := m ((c : Thread nD τ).loc main_arg7)
abbrev src := Cert.ReferenceIdeal.Read.val_main_v3 (F := Ideal) (edgeList m c)
abbrev dst := Cert.ReferenceIdeal.Read.val_main_v6 (F := Ideal) (edgeList m c)
abbrev weight := Cert.ReferenceIdeal.Read.val_main_v26 (F := Ideal) (edgeList m c)

/-! ## Layer by layer -/

/-- The first product: the input features times the first weight matrix. -/
theorem product1 : W2 m ρ c (Proc.devRef .tc main_v27)
    = times128 (m ((c : Thread nD τ).loc main_arg0)) (m ((c : Thread nD τ).loc main_arg1)) := by
  refine (W2_arr m ρ c 2).trans ?_
  rw [product0 (V1 m ρ) c]
  show RowsTimes.rowsTimes (M := 50000) (K := 128) (N := 128) (W1 m ρ c (Proc.devRef .tc main_arg0)) (W1 m ρ c (Proc.devRef .tc main_arg1)) = _
  rw [W1_arg0 m ρ c, W1_arg1 m ρ c]
  exact times128_eq _ _

/-- The first layer's output. -/
theorem layer1 : W4 m ρ c (Proc.devRef .tc main_v42)
    = biasRelu (aggregate128 (src m c) (dst m c) (weight m c)
        (times128 (m ((c : Thread nD τ).loc main_arg0)) (m ((c : Thread nD τ).loc main_arg1))))
        (m ((c : Thread nD τ).loc main_arg2)) := by
  refine (W4_arr m ρ c 2).trans ?_
  rw [bias1 (V3 m ρ) c]
  show Cert.RowBias.reluAddRow (a := 50000) (b := 128) (W3 m ρ c (Proc.devRef .tc main_v40)) (W3 m ρ c (Proc.devRef .tc main_v41)) = _
  rw [layer1_sums m ρ c, layer1_bias m ρ c, W2_v3 m ρ c, W2_v6 m ρ c, W2_v26 m ρ c, edges_src m ρ c, edges_dst m ρ c,
    edges_weight m ρ c, W2_arg2 m ρ c, product1 m ρ c]
  exact biasRelu_eq _ _

/-- The first layer's output, as a function of the launch memory. -/
abbrev hidden1 : Nodes128 :=
  biasRelu (aggregate128 (src m c) (dst m c) (weight m c)
    (times128 (m ((c : Thread nD τ).loc main_arg0)) (m ((c : Thread nD τ).loc main_arg1))))
    (m ((c : Thread nD τ).loc main_arg2))

/-- The second product: the first layer's output times the second weight matrix. -/
theorem product2_eq : W5 m ρ c (Proc.devRef .tc main_v43)
    = times128 (hidden1 m c) (m ((c : Thread nD τ).loc main_arg3)) := by
  refine (W5_arr m ρ c 2).trans ?_
  rw [product2 (V4 m ρ) c]
  show RowsTimes.rowsTimes (M := 50000) (K := 128) (N := 128) (W4 m ρ c (Proc.devRef .tc main_v42)) (W4 m ρ c (Proc.devRef .tc main_arg3)) = _
  rw [layer1 m ρ c, W4_arg3 m ρ c]
  exact times128_eq _ _

/-- The second layer's output. -/
abbrev hidden2 : Nodes128 :=
  biasRelu (aggregate128 (src m c) (dst m c) (weight m c)
    (times128 (hidden1 m c) (m ((c : Thread nD τ).loc main_arg3))))
    (m ((c : Thread nD τ).loc main_arg4))

theorem layer2 : W7 m ρ c (Proc.devRef .tc main_v58) = hidden2 m c := by
  refine (W7_arr m ρ c 2).trans ?_
  rw [bias3 (V6 m ρ) c]
  show Cert.RowBias.reluAddRow (a := 50000) (b := 128) (W6 m ρ c (Proc.devRef .tc main_v56)) (W6 m ρ c (Proc.devRef .tc main_v57)) = _
  rw [layer2_sums m ρ c, layer2_bias m ρ c, W5_v3 m ρ c, W5_v6 m ρ c, W5_v26 m ρ c, edges_src m ρ c, edges_dst m ρ c,
    edges_weight m ρ c, W5_arg4 m ρ c, product2_eq m ρ c]
  exact biasRelu_eq _ _

/-- The third product: the second layer's output times the third weight matrix. -/
theorem product3_eq : W8 m ρ c (Proc.devRef .tc main_v59)
    = times64 (hidden2 m c) (m ((c : Thread nD τ).loc main_arg5)) := by
  refine (W8_arr m ρ c 2).trans ?_
  rw [product4 (V7 m ρ) c]
  show RowsTimes.rowsTimes (M := 50000) (K := 128) (N := 64) (W7 m ρ c (Proc.devRef .tc main_v58)) (W7 m ρ c (Proc.devRef .tc main_arg5)) = _
  rw [layer2 m ρ c, W7_arg5 m ρ c]
  exact times64_eq _ _

/-- THE RESULT ARRAY at the end of the run is the network of the launch memory's arrays. -/
theorem result_value : W10 m ρ c (Proc.devRef .tc main_v74)
    = network (src m c) (dst m c) (weight m c) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (W10_arr m ρ c 2).trans ?_
  rw [bias5 (V9 m ρ) c]
  show Cert.RowBias.addRow (a := 50000) (b := 64) (W9 m ρ c (Proc.devRef .tc main_v72)) (W9 m ρ c (Proc.devRef .tc main_v73)) = _
  rw [layer3_sums m ρ c, layer3_bias m ρ c, W8_v3 m ρ c, W8_v6 m ρ c, W8_v26 m ρ c, edges_src m ρ c, edges_dst m ρ c,
    edges_weight m ρ c, W8_arg6 m ρ c, product3_eq m ρ c]
  exact bias64_eq _ _

end Cert.KernelIdeal.Network

end
-- ==== Proof.lean ====
/-
  A three-layer graph convolution on 50000 nodes and 1650000 edges (self-loops included), computed two ways.

  The kernel program computes each layer's matrix product by a row-tiled kernel on the matrix unit (blocks of 5000 rows,
  the operands narrowed to bf16 on the way in, sums kept in f32) and each layer's bias step by a second row-tiled kernel
  that adds the bias, reshaped to one row, to every row of its block (and takes `max (·, 0)` in the first two layers);
  the gathers along the edges and the per-node sums between the kernels are host operations. The reference computes the
  products by `dot_general`, adds the bias broadcast over the rows, and uses the same host operations for the edges.

  Read over the extended reals, where every operation is exact and a change of float format is the identity, both
  programs compute one function of the inputs, `Cert.Gcn.network`: a tile of a product is the same sum over `k` of the
  same products as the whole product's entries in that tile, the tiles cover every row exactly, and a bias row read at
  `(0, q)` is the bias vector at `q` either way. No law of the extended reals beyond that is used, so the inputs'
  finiteness is never needed. Nothing was rewritten when the kernel was idealized, so its idealization is its own text.
-/
import proofs.«117649_j11527692223233_1_alg».proof.Defs
import proofs.«117649_j11527692223233_1_alg».proof.Proof.Gen.Kernel
import proofs.«117649_j11527692223233_1_alg».proof.Proof.Gen.Kernel.Frame
import proofs.«117649_j11527692223233_1_alg».proof.Proof.Gen.KernelIdeal
import proofs.«117649_j11527692223233_1_alg».proof.Proof.Gen.KernelIdeal.Frame
import proofs.«117649_j11527692223233_1_alg».proof.Proof.Gen.ReferenceIdeal
import proofs.«117649_j11527692223233_1_alg».proof.Proof.Gen.ReferenceIdeal.Read
import proofs.«117649_j11527692223233_1_alg».proof.Proof.Gen.Pre_finite_inputs
import proofs.«117649_j11527692223233_1_alg».proof.Proof.Network
import Idealize.ShloMosaic.Adequacy
import Idealize.ShloMosaic.Init

noncomputable section

namespace Cert.Proof

open Idealize.ShloMosaic Idealize.ShloMosaic.TcCoe Idealize.SL.Sem

/-- The kernel program as printed runs, and leaves its arguments as launched. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- The reference is a line of host operations: its run, with the result forgotten. -/
theorem frame_reference : Cert.frame_ReferenceIdeal :=
  fun m ρ _ => (θ_run Cert.ReferenceIdeal.defs _ _).mono (fun _ h c => (h c).2)
    (Cert.ReferenceIdeal.Value.run (F := Ideal) m ρ)

/-- From memories agreeing on the inputs both programs end with the network of the inputs in their result arrays:
    the kernel program by reading its run layer by layer, the reference stage by stage. -/
theorem algebraic : Cert.algebraic_KernelIdeal_ReferenceIdeal := by
  intro m ρ m' ρ' _ hagree
  refine ⟨fun c => Cert.KernelIdeal.Gen.W10 m ρ c (Proc.devRef .tc Cert.KernelIdeal.main_v74),
    Cert.KernelIdeal.Fold.run_result m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v79 m' c
    = Cert.KernelIdeal.Gen.W10 m ρ c (Proc.devRef .tc Cert.KernelIdeal.main_v74)
  obtain ⟨e0, e1, e2, e3, e4, e5, e6, e7⟩ := hagree c
  rw [Cert.ReferenceIdeal.Read.val_main_v79_eq, Cert.Gcn.reference_eq, Cert.KernelIdeal.Network.result_value m ρ c,
    e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
